-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S1024 : Shape := ⟨1, ![1024]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg7 : FVec F S64 .f32) (main_arg8 : FVec F S64x64 .f32) (main_arg9 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg8
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : IVec S1024 32) (main_arg4 : FVec F S128x64 .f32) (main_arg5 : FVec F S64 .f32) (main_arg6 : FVec F S64x64 .f32) (main_arg7 : FVec F S64 .f32) (main_arg8 : FVec F S64x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg4
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg7 main_arg8 main_arg9 main_v13 main_v16
-- ==== Kernel.lean ====
abbrev S100000x128 : Shape := ⟨2, ![100000, 128]⟩
abbrev S1600000 : Shape := ⟨1, ![1600000]⟩
abbrev S1024 : Shape := ⟨1, ![1024]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x64 : Shape := ⟨2, ![1, 64]⟩
abbrev S100000x64 : Shape := ⟨2, ![100000, 64]⟩
abbrev S5000x64 : Shape := ⟨2, ![5000, 64]⟩
abbrev S1700000x64 : Shape := ⟨2, ![1700000, 64]⟩

abbrev nBuf : Space → Nat
  | .hbm => 79
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1024, .i32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000x128, .f32⟩
  | .hbm, ⟨43, _⟩ => ⟨S_, .f32⟩
  | .hbm, ⟨44, _⟩ => ⟨S100000x128, .f32⟩
  | .hbm, ⟨45, _⟩ => ⟨S1700000x1, .i32⟩
  | .hbm, ⟨46, _⟩ => ⟨S100000x128, .f32⟩
  | .hbm, ⟨47, _⟩ => ⟨S1x64, .f32⟩
  | .hbm, ⟨48, _⟩ => ⟨S100000x64, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S_, .f32⟩
  | .hbm, ⟨59, _⟩ => ⟨S100000x64, .f32⟩
  | .hbm, ⟨60, _⟩ => ⟨S1700000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000x64, .f32⟩
  | .hbm, ⟨73, _⟩ => ⟨S_, .f32⟩
  | .hbm, ⟨74, _⟩ => ⟨S100000x64, .f32⟩
  | .hbm, ⟨75, _⟩ => ⟨S1700000x1, .i32⟩
  | .hbm, ⟨76, _⟩ => ⟨S100000x64, .f32⟩
  | .hbm, ⟨77, _⟩ => ⟨S1x64, .f32⟩
  | .hbm, ⟨78, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S128x64, .f32⟩
  | .local _ .vmem, ⟨11, _⟩ => ⟨S1x64, .f32⟩
  | .local _ .vmem, ⟨12, _⟩ => ⟨S5000x1, .f32⟩
  | .local _ .vmem, ⟨13, _⟩ => ⟨S5000x1, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x1, .f32⟩
  | .local _ .vmem, ⟨19, _⟩ => ⟨S5000x1, .f32⟩
  | .local _ .vmem, ⟨20, _⟩ => ⟨S64x64, .f32⟩
  | .local _ .vmem, ⟨21, _⟩ => ⟨S1x64, .f32⟩
  | .local _ .vmem, ⟨22, _⟩ => ⟨S5000x1, .f32⟩
  | .local _ .vmem, ⟨23, _⟩ => ⟨S5000x1, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x1, .f32⟩
  | .local _ .vmem, ⟨29, _⟩ => ⟨S5000x1, .f32⟩
  | .local _ .vmem, ⟨30, _⟩ => ⟨S64x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_9 : Ref sig .tc := ⟨.hbm, 64, rfl⟩
abbrev main_v43 : Ref sig .tc := ⟨.hbm, 65, rfl⟩
abbrev main_v44 : Ref sig .tc := ⟨.hbm, 66, rfl⟩
abbrev main_c_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem4_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S64_S1x64 : S64.ShapeCasts S1x64
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S100000x1.size a
  hwx1_4 : ∀ i : grid1.Coords, EltTy.bits .f32 = 32 ∨ (Rect.block (s := S100000x1) S5000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x1.size a ≤ S100000x1.size a
  hwx2_4 : ∀ i : grid2.Coords, EltTy.bits .f32 = 32 ∨ (Rect.block (s := S100000x1) S5000x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v30) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v13) S5000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v42) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v52) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v17) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v53) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v54) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S1024 : Shape := ⟨1, ![1024]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1700000x128 : Shape := ⟨2, ![1700000, 128]⟩
abbrev S100000x64 : Shape := ⟨2, ![100000, 64]⟩
abbrev S1x64 : Shape := ⟨2, ![1, 64]⟩
abbrev S1700000x64 : Shape := ⟨2, ![1700000, 64]⟩

abbrev nBuf : Space → Nat
  | .hbm => 100
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1024, .i32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000x128, .f32⟩
  | .hbm, ⟨43, _⟩ => ⟨S_, .f32⟩
  | .hbm, ⟨44, _⟩ => ⟨S100000x128, .f32⟩
  | .hbm, ⟨45, _⟩ => ⟨S1700000x1, .i32⟩
  | .hbm, ⟨46, _⟩ => ⟨S100000x128, .f32⟩
  | .hbm, ⟨47, _⟩ => ⟨S100000x1, .f32⟩
  | .hbm, ⟨48, _⟩ => ⟨S100000x128, .f32⟩
  | .hbm, ⟨49, _⟩ => ⟨S100000x128, .f32⟩
  | .hbm, ⟨50, _⟩ => ⟨S100000x64, .f32⟩
  | .hbm, ⟨51, _⟩ => ⟨S1x64, .f32⟩
  | .hbm, ⟨52, _⟩ => ⟨S100000x64, .f32⟩
  | .hbm, ⟨53, _⟩ => ⟨S100000x64, .f32⟩
  | .hbm, ⟨54, _⟩ => ⟨S100000x1, .f32⟩
  | .hbm, ⟨55, _⟩ => ⟨S100000x64, .f32⟩
  | .hbm, ⟨56, _⟩ => ⟨S100000x64, .f32⟩
  | .hbm, ⟨57, _⟩ => ⟨S_, .i32⟩
  | .hbm, ⟨58, _⟩ => ⟨S1700000, .i32⟩
  | .hbm, ⟨59, _⟩ => ⟨S1700000, .i1⟩
  | .hbm, ⟨60, _⟩ => ⟨S_, .i32⟩
  | .hbm, ⟨61, _⟩ => ⟨S1700000, .i32⟩
  | .hbm, ⟨62, _⟩ => ⟨S1700000, .i32⟩
  | .hbm, ⟨63, _⟩ => ⟨S1700000, .i32⟩
  | .hbm, ⟨64, _⟩ => ⟨S1700000x1, .i32⟩
  | .hbm, ⟨65, _⟩ => ⟨S1700000x64, .f32⟩
  | .hbm, ⟨66, _⟩ => ⟨S_, .f32⟩
  | .hbm, ⟨67, _⟩ => ⟨S100000x64, .f32⟩
  | .hbm, ⟨68, _⟩ => ⟨S1700000x1, .i32⟩
  | .hbm, ⟨69, _⟩ => ⟨S100000x64, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | .hbm, ⟨77, _⟩ => ⟨S100000x1, .f32⟩
  | .hbm, ⟨78, _⟩ => ⟨S100000x64, .f32⟩
  | .hbm, ⟨79, _⟩ => ⟨S100000x64, .f32⟩
  | .hbm, ⟨80, _⟩ => ⟨S_, .i32⟩
  | .hbm, ⟨81, _⟩ => ⟨S1700000, .i32⟩
  | .hbm, ⟨82, _⟩ => ⟨S1700000, .i1⟩
  | .hbm, ⟨83, _⟩ => ⟨S_, .i32⟩
  | .hbm, ⟨84, _⟩ => ⟨S1700000, .i32⟩
  | .hbm, ⟨85, _⟩ => ⟨S1700000, .i32⟩
  | .hbm, ⟨86, _⟩ => ⟨S1700000, .i32⟩
  | .hbm, ⟨87, _⟩ => ⟨S1700000x1, .i32⟩
  | .hbm, ⟨88, _⟩ => ⟨S1700000x64, .f32⟩
  | .hbm, ⟨89, _⟩ => ⟨S_, .f32⟩
  | .hbm, ⟨90, _⟩ => ⟨S100000x64, .f32⟩
  | .hbm, ⟨91, _⟩ => ⟨S1700000x1, .i32⟩
  | .hbm, ⟨92, _⟩ => ⟨S100000x64, .f32⟩
  | .hbm, ⟨93, _⟩ => ⟨S100000x1, .f32⟩
  | .hbm, ⟨94, _⟩ => ⟨S100000x64, .f32⟩
  | .hbm, ⟨95, _⟩ => ⟨S100000x64, .f32⟩
  | .hbm, ⟨96, _⟩ => ⟨S100000x64, .f32⟩
  | .hbm, ⟨97, _⟩ => ⟨S1x64, .f32⟩
  | .hbm, ⟨98, _⟩ => ⟨S100000x64, .f32⟩
  | .hbm, ⟨99, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_6 : Ref sig .tc := ⟨.hbm, 57, rfl⟩
abbrev main_v39 : Ref sig .tc := ⟨.hbm, 58, rfl⟩
abbrev main_v40 : Ref sig .tc := ⟨.hbm, 59, rfl⟩
abbrev main_c_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_9 : Ref sig .tc := ⟨.hbm, 80, rfl⟩
abbrev main_v59 : Ref sig .tc := ⟨.hbm, 81, rfl⟩
abbrev main_v60 : Ref sig .tc := ⟨.hbm, 82, rfl⟩
abbrev main_c_10 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_11 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩

abbrev nD : Nat := 1
abbrev τ : Topo := Topo.v7x

variable {F : FTy → Type} [FloatOps F]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/- The run of the whole idealized kernel program, stated with its value: from any launch memory with every semaphore
   counter at zero, every weakly fair execution of @main on the TensorCores terminates, and in every final state each
   unscoped TensorCore buffer holds the contents of the last segment boundary (`Gen.W8`). In particular the result
   buffer `main_v54` holds the last boundary's contents and every argument array holds what it was launched with.
   The segments, the proof data and the boundary contents are those of the generated frame module; only the last
   step — what is read off the final state — is stronger here. -/
import proofs.«124921_j80470507257933_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN, IN FULL: every weakly fair execution of @main terminates, and in every final state every unscoped
    TensorCore buffer `b` of every core `c` holds `W8 m ρ c b`, the contents at the last segment boundary. -/
theorem run_full : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- THE RUN, WITH ITS VALUE: every weakly fair execution of @main terminates, and in every final state the result
    buffer `main_v54` of every core holds the last boundary's contents `W8 m ρ c` at it, and every argument array
    holds what it was launched with (no host operation and no region writes an argument). -/
theorem run : θ_run defs (onTc (τ := τ) (main (F := F))) ⟨m, fun _ => 0, ρ⟩ (fun r => ∀ c : Dev nD,
      r.2.mem ((c.tc : Thread nD τ).loc main_v54) = Gen.W8 m ρ c (Proc.devRef .tc main_v54)
      ∧ r.2.mem ((c.tc : Thread nD τ).loc main_arg3) = m ((c.tc : Thread nD τ).loc main_arg3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs (onTc (τ := τ) (main (F := F))) ⟨m, fun _ => 0, ρ⟩).mono (fun r h c =>
    ⟨h c _ (mem_uc main_v54 (by decide)),
     (h c _ (mem_uc main_arg3 (by decide))).trans (W8_main_arg3 m ρ c),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c)⟩) (run_full m ρ)

end Cert.KernelIdeal.ValueRun

end
-- ==== Proof.LibDotPlain.lean ====
/-
  The dimension numbers of a plain matrix product — the left operand contracted on its last axis, the right on its
  first, no batch axes — read at an index. At result position (i, q) and contraction position k the left operand is
  read at (i, k) and the right at (k, q); the contraction shape has one axis of the shared extent, so the sum over it
  is the ordinary sum over k of l(i, k) · r(k, q). Both a tiled matrix unit product into a zero accumulator and a host
  dot product then read, at the ideal instance, as that sum, whatever the extents.
-/
import Idealize.ShloMosaic.PureOps.Ideal.Laws
import Idealize.ShloMosaic.Lib.ValueIdx

noncomputable section

open scoped BigOperators

namespace Idealize.ShloMosaic.DotPlain

open Idealize.ShloMosaic Idealize.ShloMosaic.ValueIdx

variable {M K N : Nat} (d : DotDims ⟨2, ![M, K]⟩ ⟨2, ![K, N]⟩ ⟨2, ![M, N]⟩)

/-- The dimension numbers are those of a plain product: [1] × [0] contracted, [0] and [1] kept, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

theorem rank_one (h : IsPlain d) : d.contr.rank = 1 := by rw [d.rank_contr, h.lc]; rfl

theorem size_zero (h : IsPlain d) : d.contr.size ⟨0, by rw [rank_one h]; exact Nat.one_pos⟩ = K := by
  rw [d.size_contr 0 (by rw [h.lc]; exact Nat.one_pos)]
  have e : d.lhsContracting[0]'(by rw [h.lc]; exact Nat.one_pos) = (1 : Fin 2) := by simp [h.lc]
  rw [e]; rfl

/-- The contraction positions are the numbers below the shared extent. -/
def pos (h : IsPlain d) : d.contr.Idx ≃ Fin K := contrEquiv1 d K (rank_one h) (size_zero h)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq e => by subst e; rfl

theorem lhsIdx_row (h : IsPlain d) (j : (⟨2, ![M, N]⟩ : Shape).Idx) (k : d.contr.Idx) :
    (d.lhsIdx j k 0).val = (j 0).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact val_congr j _ _ _ _ (by simp [h.lb, h.ln])

theorem lhsIdx_col (h : IsPlain d) (j : (⟨2, ![M, N]⟩ : Shape).Idx) (k : d.contr.Idx) :
    (d.lhsIdx j k 1).val = (pos h k).val := by
  rw [d.lhsIdx_val_of_single h.lc j k]; rfl

theorem rhsIdx_row (h : IsPlain d) (j : (⟨2, ![M, N]⟩ : Shape).Idx) (k : d.contr.Idx) :
    (d.rhsIdx j k 0).val = (pos h k).val := by
  rw [d.rhsIdx_val_of_single h.rc j k]; rfl

theorem rhsIdx_col (h : IsPlain d) (j : (⟨2, ![M, N]⟩ : Shape).Idx) (k : d.contr.Idx) :
    (d.rhsIdx j k 1).val = (j 1).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

theorem lhsIdx_eq (h : IsPlain d) (j : (⟨2, ![M, N]⟩ : Shape).Idx) (k : d.contr.Idx) :
    d.lhsIdx j k = ix2 (j 0) (pos h k) := by
  funext a; apply Fin.ext
  match a with
  | ⟨0, _⟩ => exact lhsIdx_row h j k
  | ⟨1, _⟩ => exact lhsIdx_col h j k

theorem rhsIdx_eq (h : IsPlain d) (j : (⟨2, ![M, N]⟩ : Shape).Idx) (k : d.contr.Idx) :
    d.rhsIdx j k = ix2 (pos h k) (j 1) := by
  funext a; apply Fin.ext
  match a with
  | ⟨0, _⟩ => exact rhsIdx_row h j k
  | ⟨1, _⟩ => exact rhsIdx_col h j k

/-- THE CONTRACTION SUM of a plain product is the sum over k below the shared extent of l(i, k) · r(k, q). -/
theorem sum_eq (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ k : Fin K, l (ix2 (j 0) k) * r (ix2 k (j 1)) := by
  rw [← Equiv.sum_comp (pos h) (fun k : Fin K => l (ix2 (j 0) k) * r (ix2 k (j 1)))]
  exact Finset.sum_congr rfl fun k _ => by rw [lhsIdx_eq h j k, rhsIdx_eq h j k]; rfl

/-- A matrix unit product into a zero accumulator, at the ideal instance and at an index. -/
theorem matmul_zero_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    matmul d prec l r (constant (F := Ideal) ⟨2, ![M, N]⟩ .f32 0x00000000#32) j = ∑ k : Fin K, l (ix2 (j 0) k) * r (ix2 k (j 1)) :=
  (Ideal.matmul_constant_zero_apply d prec l r j).trans (sum_eq h l r j)

/-- A host dot product, at the ideal instance and at an index. -/
theorem dotGeneral_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    Host.dotGeneral d prec l r j = ∑ k : Fin K, l (ix2 (j 0) k) * r (ix2 k (j 1)) := by
  unfold Host.dotGeneral
  exact (Ideal.dotGeneral_apply d prec _ l r j).trans (sum_eq h l r j)

end Idealize.ShloMosaic.DotPlain

end
-- ==== Proof.LibMatProd.lean ====
/-
  The product of an M×K and a K×N array of extended reals as ONE function of the two arrays: entry (i, q) is the sum over
  k of l(i, k) · r(k, q). A host dot product with plain matrix-product dimension numbers, and a matrix-unit product into
  a zero accumulator, are that function at the ideal instance; and an entry of the product depends only on row i of the
  left operand and column q of the right one, so the product of a block of rows with the right operand is that block of
  rows of the whole product.
-/
import proofs.«124921_j80470507257933_1_alg».proof.Proof.LibDotPlain

noncomputable section

open scoped BigOperators

namespace Idealize.ShloMosaic.MatProd

open Idealize.ShloMosaic Idealize.ShloMosaic.ValueIdx Idealize.ShloMosaic.DotPlain

/-- Entry (i, q) of the product: the sum over k of l(i, k) · r(k, q). -/
def matProd {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

variable {M K N : Nat} {d : DotDims ⟨2, ![M, K]⟩ ⟨2, ![K, N]⟩ ⟨2, ![M, N]⟩}

/-- A host dot product with plain dimension numbers is the product. -/
theorem dotGeneral_eq (h : IsPlain d) (prec : Option ContractPrecision) {φ₁ φ₂ : FTy}
    (l : FVec Ideal ⟨2, ![M, K]⟩ φ₁) (r : FVec Ideal ⟨2, ![K, N]⟩ φ₂) :
    Host.dotGeneral d prec l r = matProd l r :=
  funext fun j => DotPlain.dotGeneral_apply h prec l r j

/-- A matrix-unit product into a zero accumulator is the product, at an entry. -/
theorem matmul_zero_apply (h : IsPlain d) (prec : Option ContractPrecision) {φ₁ φ₂ : FTy}
    (l : FVec Ideal ⟨2, ![M, K]⟩ φ₁) (r : FVec Ideal ⟨2, ![K, N]⟩ φ₂) (j : (⟨2, ![M, N]⟩ : Shape).Idx) :
    matmul d prec l r (constant (F := Ideal) ⟨2, ![M, N]⟩ .f32 0x00000000#32) j = matProd l r j :=
  DotPlain.matmul_zero_apply h prec l r j

/-- An entry of a product of a block of rows (and a copy of the right operand) is the entry of the whole product whose
    row the block's row is: the sums agree term by term. -/
theorem matProd_of_rows {B : Nat} (lb : (⟨2, ![B, K]⟩ : Shape).Idx → EReal) (rb : (⟨2, ![K, N]⟩ : Shape).Idx → EReal)
    (l : (⟨2, ![M, K]⟩ : Shape).Idx → EReal) (r : (⟨2, ![K, N]⟩ : Shape).Idx → EReal)
    (p : Fin B) (q : Fin N) (i : Fin M)
    (hl : ∀ k : Fin K, lb (ix2 p k) = l (ix2 i k)) (hr : ∀ k : Fin K, rb (ix2 k q) = r (ix2 k q)) :
    matProd lb rb (ix2 p q) = matProd l r (ix2 i q) :=
  Finset.sum_congr rfl fun k _ => by
    show lb (ix2 p k) * rb (ix2 k q) = l (ix2 i k) * r (ix2 k q)
    rw [hl k, hr k]

end Idealize.ShloMosaic.MatProd

end
-- ==== Proof.RowMaps.lean ====
/-
  Row-wise maps on matrices of extended reals, for any number of rows.

  `rowScale x s` multiplies every row of x by that row's entry of a column s. `dense x s w b` is one dense layer on
  scaled rows: (rowScale x s) times the weight matrix w, plus the bias row b on every row. Row i of either result
  depends only on row i of x and entry i of s. So the maps commute with taking a block of consecutive rows: applied to
  a block of rows of x and the matching entries of s (with w and b whole) they give that block of rows of the result on
  the whole matrix. This is what lets a kernel that works on 5000 rows at a time be compared with one product on all
  100000 rows. No finiteness is used: the two sides are the same sums of the same products.
-/
import proofs.«124921_j80470507257933_1_alg».proof.Proof.LibMatProd

noncomputable section

open scoped BigOperators

namespace Cert.RowMaps

open Idealize.ShloMosaic Idealize.ShloMosaic.ValueIdx Idealize.ShloMosaic.MatProd

/-- An n × c matrix of extended reals. -/
abbrev Mat (n c : ℕ) := (⟨2, ![n, c]⟩ : Shape).Idx → EReal

/-- Every row multiplied by that row's entry of the column s: entry (i, q) is x(i, q) · s(i, 0). -/
def rowScale {n c : ℕ} (x : Mat n c) (s : Mat n 1) : Mat n c :=
  fun j => x j * s (ix2 (j 0) (0 : Fin 1))

/-- A dense layer on scaled rows: entry (i, q) is the sum over k of (x(i, k) · s(i, 0)) · w(k, q), plus b(0, q). -/
def dense {n k c : ℕ} (x : Mat n k) (s : Mat n 1) (w : Mat k c) (b : Mat 1 c) : Mat n c :=
  fun j => matProd (rowScale x s) w j + b (ix2 (0 : Fin 1) (j 1))

theorem rowScale_apply {n c : ℕ} (x : Mat n c) (s : Mat n 1) (p : Fin n) (q : Fin c) :
    rowScale x s (ix2 p q) = x (ix2 p q) * s (ix2 p (0 : Fin 1)) := rfl

theorem dense_apply {n k c : ℕ} (x : Mat n k) (s : Mat n 1) (w : Mat k c) (b : Mat 1 c) (p : Fin n) (q : Fin c) :
    dense x s w b (ix2 p q) = matProd (rowScale x s) w (ix2 p q) + b (ix2 (0 : Fin 1) q) := rfl

/-- Scaling a block of rows is that block of rows of the scaled matrix: row p of the block is row i of the whole. -/
theorem rowScale_of_rows {B n c : ℕ} (xb : Mat B c) (sb : Mat B 1) (x : Mat n c) (s : Mat n 1) (p : Fin B) (i : Fin n)
    (hx : ∀ q : Fin c, xb (ix2 p q) = x (ix2 i q)) (hs : sb (ix2 p (0 : Fin 1)) = s (ix2 i (0 : Fin 1))) (q : Fin c) :
    rowScale xb sb (ix2 p q) = rowScale x s (ix2 i q) := by
  rw [rowScale_apply, rowScale_apply, hx q, hs]

/-- The dense layer on a block of rows is that block of rows of the layer on the whole matrix. -/
theorem dense_of_rows {B n k c : ℕ} (xb : Mat B k) (sb : Mat B 1) (wb : Mat k c) (bb : Mat 1 c)
    (x : Mat n k) (s : Mat n 1) (w : Mat k c) (b : Mat 1 c) (p : Fin B) (i : Fin n)
    (hx : ∀ q : Fin k, xb (ix2 p q) = x (ix2 i q)) (hs : sb (ix2 p (0 : Fin 1)) = s (ix2 i (0 : Fin 1)))
    (hw : wb = w) (hb : bb = b) (q : Fin c) :
    dense xb sb wb bb (ix2 p q) = dense x s w b (ix2 i q) := by
  subst hw hb
  rw [dense_apply, dense_apply]
  exact congrArg (· + bb (ix2 (0 : Fin 1) q))
    (matProd_of_rows (rowScale xb sb) wb (rowScale x s) wb p q i
      (fun k' => rowScale_of_rows xb sb x s p i hx hs k') (fun _ => rfl))

end Cert.RowMaps

end
-- ==== Proof.LibAffineLayouts.lean ====
/-
  Layout operations of a per-channel affine map, read at an index given by coordinates.

  A kernel that computes `x[r, c] * w[c, d] + b[c, d]` one channel `c` at a time broadcasts a COLUMN `[a, 1]`
  (the rows' entries of channel `c`) and a ROW `[1, b]` (the channel's weights) to a common `[a, b]` tile,
  and stores the tile with a unit axis put in the middle, `[a, 1, b]`. Around it the rows are a flattening of
  two leading axes: `[p, q, c]` viewed as `[p * q, c]` on the way in and `[p * q, c, d]` viewed as
  `[p, q, c, d]` on the way out. Each lemma reads one of these operations at coordinates:

  * `broadcastTo_a1_ab_apply`   — a column `[a, 1]` broadcast to `[a, b]` at `(p, c)` is the column at row `p`;
  * `shapeCast_ab_a1b_apply`    — an `[a, b]` tile cast to `[a, 1, b]` at `(p, u, c)` is the tile at `(p, c)`;
  * `shapeCast_abc_nc_apply`    — `[a, b, c]` flattened to `[n, c]` at row `p * b + q` is the operand at `(p, q, ·)`;
  * `shapeCast_ncd_abcd_apply`  — `[n, c, d]` unflattened to `[a, b, c, d]` at `(p, q, ·, ·)` is the operand at row `p * b + q`;
  * `read_congr`                — two indices with equal coordinates read the same entry;
  * `affineTile_apply`          — on the extended reals, the tile `column * row + row'` cast to `[a, 1, b]`, at
    `(p, u, c)`, is `column p * row c + row' c`.
-/
import Idealize.ShloMosaic.Lib.ValueLayout
import Idealize.ShloMosaic.PureOps.Ideal

noncomputable section

namespace AffineLayouts

open Idealize.ShloMosaic Idealize.ShloMosaic.ValueIdx

variable {α : Type}

/-- Two indices with the same coordinates read the same entry. -/
theorem read_congr {s : Shape} {β : Type} (f : s.Idx → β) {i j : s.Idx} (h : ∀ a, (i a).val = (j a).val) : f i = f j :=
  congrArg f (funext fun a => Fin.ext (h a))

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` tile cast to `[a, 1, b]` reads, at `(p, u, c)`, the tile at `(p, c)`: the unit axis in the middle
does not move the row-major position. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (c : Fin b) :
    shapeCast ⟨3, ![a, 1, b]⟩ x h (ix3 p u c) = x (ix2 p c) :=
  shapeCast_apply x h _ _ (by
    have hu : u.val = 0 := by omega
    rw [Shape.rowMajor_val_three, Shape.rowMajor_val_two]
    show p.val * b + c.val = (p.val * 1 + u.val) * b + c.val
    rw [hu, Nat.mul_one, Nat.add_zero])

/-- An `[a, b, c]` array flattened to `[n, c]` (its two leading axes merged, `n = a * b`) reads, at row
`r = p * b + q` and column `k`, the operand at `(p, q, k)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) :
    shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- An `[n, c, d]` array unflattened to `[a, b, c, d]` (its leading axis split, `n = a * b`) reads, at
`(p, q, k, l)`, the operand at row `r = p * b + q`, `(r, k, l)`. -/
theorem shapeCast_ncd_abcd_apply {a b c d n : ℕ} (x : (⟨3, ![n, c, d]⟩ : Shape).Idx → α)
    (h : (⟨3, ![n, c, d]⟩ : Shape).ShapeCasts ⟨4, ![a, b, c, d]⟩) (p : Fin a) (q : Fin b) (k : Fin c) (l : Fin d)
    (r : Fin n) (hr : r.val = p.val * b + q.val) :
    shapeCast ⟨4, ![a, b, c, d]⟩ x h (ix4 p q k l) = x (ix3 r k l) :=
  shapeCast_apply x h _ _ (by
    rw [Shape.rowMajor_val_three, Shape.rowMajor_val_four]
    show (r.val * c + k.val) * d + l.val = ((p.val * b + q.val) * c + k.val) * d + l.val
    rw [hr])

/-- On the extended reals: the tile `column * row + row'` over `[a, b]`, stored as `[a, 1, b]`, holds at
`(p, u, c)` the number `column p * row c + row' c`. -/
theorem affineTile_apply {a b : ℕ} {φ : FTy} (col : FVec Ideal ⟨2, ![a, 1]⟩ φ) (row row' : FVec Ideal ⟨2, ![1, b]⟩ φ)
    (hc : (⟨2, ![a, 1]⟩ : Shape).Broadcasts ⟨2, ![a, b]⟩) (hr : (⟨2, ![1, b]⟩ : Shape).Broadcasts ⟨2, ![a, b]⟩)
    (hs : (⟨2, ![a, b]⟩ : Shape).ShapeCasts ⟨3, ![a, 1, b]⟩) (p : Fin a) (u : Fin 1) (c : Fin b) :
    shapeCast ⟨3, ![a, 1, b]⟩
        (addf (mulf (broadcastTo ⟨2, ![a, b]⟩ col hc) (broadcastTo ⟨2, ![a, b]⟩ row hr)) (broadcastTo ⟨2, ![a, b]⟩ row' hr)) hs
        (ix3 p u c)
      = col (ix2 p (0 : Fin 1)) * row (ix2 (0 : Fin 1) c) + row' (ix2 (0 : Fin 1) c) := by
  rw [shapeCast_ab_a1b_apply, addf_apply, mulf_apply, broadcastTo_a1_ab_apply, broadcastTo_1b_ab_apply,
    broadcastTo_1b_ab_apply]

end AffineLayouts

end
-- ==== Proof.Payloads.lean ====
/-
  What each kernel body stores, as a row map.

  Every one of the four kernels loads whole blocks, computes one value from them and stores it whole. Read on the
  extended reals (where narrowing a float format changes nothing, and a matrix-unit product into a zero accumulator is
  the plain sum of products), the stored values are:

    the scaling kernel          x · s                      (each row of the block times that row's factor),
    the two middle layers       ((x · s) W + b) · s'       (a dense layer on scaled rows, scaled again),
    the last layer              (x · s) W + b.

  These are `rowScale` and `dense` at 5000 rows.
-/
import proofs.«124921_j80470507257933_1_alg».proof.Proof.Gen.KernelIdeal.Skeleton
import proofs.«124921_j80470507257933_1_alg».proof.Proof.RowMaps
import proofs.«124921_j80470507257933_1_alg».proof.Proof.LibAffineLayouts
import Idealize.ShloMosaic.Lib.ValueLayout
import Idealize.ShloMosaic.Lib.Pipeline.Value

noncomputable section

namespace Cert.KernelIdeal.Payloads

open Cert.KernelIdeal Cert.KernelIdeal.Gen
open Idealize.ShloMosaic Idealize.ShloMosaic.ValueIdx Idealize.ShloMosaic.MatProd Cert.RowMaps

/-- The two matrix-unit products contract the left operand's columns against the right operand's rows. -/
theorem plain128 : DotPlain.IsPlain dot_S5000x128_S128x64_S5000x64_1_0_0_1_n_n := ⟨rfl, rfl, rfl, rfl, rfl, rfl⟩
theorem plain64 : DotPlain.IsPlain dot_S5000x64_S64x64_S5000x64_1_0_0_1_n_n := ⟨rfl, rfl, rfl, rfl, rfl, rfl⟩

/-- A block times its column of factors broadcast along the rows is the block with every row scaled. -/
theorem mul_column {c : ℕ} (x : FVec Ideal ⟨2, ![5000, c]⟩ .f32) (s : FVec Ideal ⟨2, ![5000, 1]⟩ .f32)
    (h : (⟨2, ![5000, 1]⟩ : Shape).Broadcasts ⟨2, ![5000, c]⟩) :
    mulf x (broadcastTo ⟨2, ![5000, c]⟩ s h) = rowScale x s := by
  funext j
  obtain ⟨p, q, rfl⟩ : ∃ (p : Fin 5000) (q : Fin c), j = ix2 p q := ⟨j 0, j 1, eq_ix2 j⟩
  rw [mulf_apply, AffineLayouts.broadcastTo_a1_ab_apply]
  rfl

/-- Scaled rows (narrowed to a shorter float format, which is the identity here) times the weights (narrowed too),
    accumulated from zero, plus the bias row broadcast down the rows: the dense layer. -/
theorem layer_eq {k : ℕ} (d : DotDims ⟨2, ![5000, k]⟩ ⟨2, ![k, 64]⟩ ⟨2, ![5000, 64]⟩) (hd : DotPlain.IsPlain d)
    (x : FVec Ideal ⟨2, ![5000, k]⟩ .f32) (s : FVec Ideal ⟨2, ![5000, 1]⟩ .f32) (w : FVec Ideal ⟨2, ![k, 64]⟩ .f32)
    (b : FVec Ideal ⟨2, ![1, 64]⟩ .f32) (h1 h2 : FTy.bits .bf16 < FTy.bits .f32)
    (hb : (⟨2, ![1, 64]⟩ : Shape).Broadcasts ⟨2, ![5000, 64]⟩) :
    addf (matmul d none (truncf .bf16 (rowScale x s : FVec Ideal ⟨2, ![5000, k]⟩ .f32) h1) (truncf .bf16 w h2)
        (constant (F := Ideal) ⟨2, ![5000, 64]⟩ .f32 0x00000000#32))
      (broadcastTo ⟨2, ![5000, 64]⟩ b hb) = dense x s w b := by
  funext j
  obtain ⟨p, q, rfl⟩ : ∃ (p : Fin 5000) (q : Fin 64), j = ix2 p q := ⟨j 0, j 1, eq_ix2 j⟩
  rw [addf_apply, MatProd.matmul_zero_apply hd, broadcastTo_1b_ab_apply]
  rfl

/-- The scaling kernel stores its block with every row scaled by that row's factor. -/
theorem scale_eq (x0 : Vec Ideal S5000x128 .f32) (x1 : Vec Ideal S5000x1 .f32) : k0_pay1 x0 x1 = rowScale x0 x1 := by
  unfold k0_pay1
  simp only [shapeCast_self, mul_column]

/-- The first middle layer (128 input features) stores the dense layer on its scaled rows, scaled by the second column. -/
theorem layer128_eq (x0 : Vec Ideal S5000x128 .f32) (x1 : Vec Ideal S5000x1 .f32) (x2 : Vec Ideal S128x64 .f32)
    (x3 : Vec Ideal S1x64 .f32) (x4 : Vec Ideal S5000x1 .f32) :
    k1_pay1 x0 x1 x2 x3 x4 = rowScale (dense x0 x1 x2 x3) x4 := by
  unfold k1_pay1
  simp only [shapeCast_self, mul_column]
  exact congrArg (fun y => rowScale y x4) (layer_eq _ plain128 x0 x1 x2 x3 _ _ _)

/-- The second middle layer (64 input features): the same. -/
theorem layer64_eq (x0 : Vec Ideal S5000x64 .f32) (x1 : Vec Ideal S5000x1 .f32) (x2 : Vec Ideal S64x64 .f32)
    (x3 : Vec Ideal S1x64 .f32) (x4 : Vec Ideal S5000x1 .f32) :
    k2_pay1 x0 x1 x2 x3 x4 = rowScale (dense x0 x1 x2 x3) x4 := by
  unfold k2_pay1
  simp only [shapeCast_self, mul_column]
  exact congrArg (fun y => rowScale y x4) (layer_eq _ plain64 x0 x1 x2 x3 _ _ _)

/-- The last layer stores the dense layer on its scaled rows. -/
theorem last_eq (x0 : Vec Ideal S5000x64 .f32) (x1 : Vec Ideal S5000x1 .f32) (x2 : Vec Ideal S64x64 .f32)
    (x3 : Vec Ideal S1x64 .f32) : k3_pay1 x0 x1 x2 x3 = dense x0 x1 x2 x3 := by
  unfold k3_pay1
  simp only [shapeCast_self, mul_column]
  exact layer_eq _ plain64 x0 x1 x2 x3 _ _ _

end Cert.KernelIdeal.Payloads

end
-- ==== Proof.RowBlocks.lean ====
/-
  The row maps on a block of rows, in the form a tiled kernel meets them.

  A block of B rows of a matrix and the whole matrix are related by an index j of the whole for each index y of the
  block: row (j 0) of the whole is row (y 0) of the block, and the column is the same. Given that the block's entries
  are the whole's entries on that row (and the weights and bias row are whole in both), each row map of the block at y
  is the same row map of the whole at j.
-/
import proofs.«124921_j80470507257933_1_alg».proof.Proof.RowMaps

noncomputable section

namespace Cert.RowMaps

open Idealize.ShloMosaic Idealize.ShloMosaic.ValueIdx Idealize.ShloMosaic.MatProd

theorem rowScale_block {B n c : ℕ} (xb : Mat B c) (sb : Mat B 1) (x : Mat n c) (s : Mat n 1)
    (y : (⟨2, ![B, c]⟩ : Shape).Idx) (j : (⟨2, ![n, c]⟩ : Shape).Idx)
    (hx : xb y = x j) (hs : sb (ix2 (y 0) (0 : Fin 1)) = s (ix2 (j 0) (0 : Fin 1))) :
    rowScale xb sb y = rowScale x s j := by
  unfold rowScale; rw [hx, hs]

theorem dense_block {B n k c : ℕ} (xb : Mat B k) (sb : Mat B 1) (wb : Mat k c) (bb : Mat 1 c)
    (x : Mat n k) (s : Mat n 1) (w : Mat k c) (b : Mat 1 c)
    (y : (⟨2, ![B, c]⟩ : Shape).Idx) (j : (⟨2, ![n, c]⟩ : Shape).Idx)
    (hx : ∀ q : Fin k, xb (ix2 (y 0) q) = x (ix2 (j 0) q)) (hs : sb (ix2 (y 0) (0 : Fin 1)) = s (ix2 (j 0) (0 : Fin 1)))
    (hw : wb = w) (hb : bb = b) (h1 : y 1 = j 1) :
    dense xb sb wb bb y = dense x s w b j := by
  calc dense xb sb wb bb y = dense xb sb wb bb (ix2 (y 0) (y 1)) := congrArg _ (eq_ix2 y)
    _ = dense x s w b (ix2 (j 0) (y 1)) := dense_of_rows xb sb wb bb x s w b (y 0) (j 0) hx hs hw hb (y 1)
    _ = dense x s w b (ix2 (j 0) (j 1)) := by rw [h1]
    _ = dense x s w b j := congrArg _ (eq_ix2 j).symm

theorem rowScale_dense_block {B n k c : ℕ} (xb : Mat B k) (sb : Mat B 1) (wb : Mat k c) (bb : Mat 1 c) (sb' : Mat B 1)
    (x : Mat n k) (s : Mat n 1) (w : Mat k c) (b : Mat 1 c) (s' : Mat n 1)
    (y : (⟨2, ![B, c]⟩ : Shape).Idx) (j : (⟨2, ![n, c]⟩ : Shape).Idx)
    (hx : ∀ q : Fin k, xb (ix2 (y 0) q) = x (ix2 (j 0) q)) (hs : sb (ix2 (y 0) (0 : Fin 1)) = s (ix2 (j 0) (0 : Fin 1)))
    (hw : wb = w) (hb : bb = b) (hs' : sb' (ix2 (y 0) (0 : Fin 1)) = s' (ix2 (j 0) (0 : Fin 1))) (h1 : y 1 = j 1) :
    rowScale (dense xb sb wb bb) sb' y = rowScale (dense x s w b) s' j :=
  rowScale_block _ _ _ _ y j (dense_block xb sb wb bb x s w b y j hx hs hw hb h1) hs'

end Cert.RowMaps

end
-- ==== Proof.Region0.lean ====
/-
  The scaling kernel's output array, whole.

  The kernel walks the 100000 rows in 20 blocks of 5000; at block t it reads rows 5000·t … 5000·t + 4999 of the feature
  matrix and the same entries of the column of factors, and writes those rows of the output. Its stored value is the
  block with every row scaled, and scaling rows commutes with taking a block of rows, so when all 20 blocks have been
  written back the output is the whole matrix with every row scaled — whatever the arrays held when the kernel was
  entered.
-/
import proofs.«124921_j80470507257933_1_alg».proof.Proof.Gen.KernelIdeal.Frame
import proofs.«124921_j80470507257933_1_alg».proof.Proof.Payloads
import proofs.«124921_j80470507257933_1_alg».proof.Proof.RowBlocks
import Idealize.ShloMosaic.Lib.Pipeline.Value

set_option maxRecDepth 16384

noncomputable section

namespace Cert.KernelIdeal.Region0

open Cert.KernelIdeal Cert.KernelIdeal.Gen Cert.KernelIdeal.Payloads Cert.RowMaps
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- At grid point t every window's block is block t along the rows and block 0 along the columns. -/
theorem blocks : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The whole output: the feature matrix as entered with every row scaled by the column as entered. -/
abbrev result (c : Dev nD) : S100000x128.Idx → EReal :=
  rowScale (V c main_arg0 : S100000x128.Idx → EReal) (V c main_v13 : S100000x1.Idx → EReal)

/-- What grid point t writes back is block t of the whole output. -/
theorem flushed_eq (c : Dev nD) (t : Fin cfg0.N) :
    (dat0 V c).flushed 2 t = ((cfg0.win 2).blk t).view.read (Elt Ideal) (result V c) := by
  show (cfg0.win 2).cut (grid0.coords t) ((dat0 V c).after 2 t) = _
  rw [after0_2]
  unfold out0_2
  rw [View.canon_unit_zero hz]
  simp only [View.ld_unit_zero (S := S5000x128) hz, View.ld_unit_zero (S := S5000x1) hz]
  rw [scale_eq]
  obtain ⟨e0, e1, e2, e3, e4, e5⟩ := blocks t
  funext y
  show rowScale (iblk0 V c 0 t) (iblk0 V c 1 t) y = result V c (((cfg0.win 2).blk t).view.emb y)
  have h0 : ((cfg0.win 0).blk t).view.emb y = ((cfg0.win 2).blk t).view.emb y := by
    funext a; apply Fin.ext
    match a with
    | ⟨0, _⟩ => show win0_0.index t (0 : Fin 2) * 5000 + 1 * (y 0).val = win0_2.index t (0 : Fin 2) * 5000 + 1 * (y 0).val; rw [e0, e4]
    | ⟨1, _⟩ => show win0_0.index t (1 : Fin 2) * 128 + 1 * (y 1).val = win0_2.index t (1 : Fin 2) * 128 + 1 * (y 1).val; rw [e1, e5]
  have h1 : ((cfg0.win 1).blk t).view.emb (ix2 (y 0) (0 : Fin 1)) = ix2 ((((cfg0.win 2).blk t).view.emb y) 0) (0 : Fin 1) := by
    funext a; apply Fin.ext
    match a with
    | ⟨0, _⟩ => show win0_1.index t (0 : Fin 2) * 5000 + 1 * (y 0).val = win0_2.index t (0 : Fin 2) * 5000 + 1 * (y 0).val; rw [e2, e4]
    | ⟨1, _⟩ => show win0_1.index t (1 : Fin 2) * 1 + 1 * 0 = 0; rw [e3]
  refine rowScale_block _ _ _ _ y _ ?_ ?_
  · exact congrArg (V c main_arg0 : S100000x128.Idx → EReal) h0
  · exact congrArg (V c main_v13 : S100000x1.Idx → EReal) h1

/-- An index of the output is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v18).slice (win0_2.rect t)).set ↔ _
  rw [View.set_slice_whole, Rect.mem_set_unit]
  exact Iff.rfl

/-- Every row lies in some written-back block: row r in block r / 5000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, e4, e5⟩ := blocks t
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 128 ≤ (i 1).val ∧ (i 1).val < win0_2.index t (1 : Fin 2) * 128 + 128
    rw [e5]; omega

/-- The output array after the kernel: the feature matrix as entered with every row scaled by the column as entered. -/
theorem final (c : Dev nD) : (dat0 V c).arrAt 2 cfg0.N = result V c :=
  (dat0 V c).arrAt_eq_of_cover 2 (result V c) (fun t _ => flushed_eq V c t) cover

end Cert.KernelIdeal.Region0

end
-- ==== Proof.Region1.lean ====
/-
  The first dense-layer kernel's output array, whole (128 input features).

  The kernel walks the 100000 rows in 20 blocks of 5000; at block t it reads rows 5000·t … 5000·t + 4999 of the
  aggregated features and the same entries of the two columns of factors, the weights and the bias row whole, and writes
  those rows of the output. Its stored value is the dense layer on the block's scaled rows, scaled again; a row of that
  depends only on the same row of the inputs, so when all 20 blocks are written back the output is the same map of the
  whole arrays — whatever they held when the kernel was entered.
-/
import proofs.«124921_j80470507257933_1_alg».proof.Proof.Gen.KernelIdeal.Frame
import proofs.«124921_j80470507257933_1_alg».proof.Proof.Payloads
import proofs.«124921_j80470507257933_1_alg».proof.Proof.RowBlocks
import Idealize.ShloMosaic.Lib.Pipeline.Value

set_option maxRecDepth 16384

noncomputable section

namespace Cert.KernelIdeal.Region1

open Cert.KernelIdeal Cert.KernelIdeal.Gen Cert.KernelIdeal.Payloads Cert.RowMaps
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- At grid point t the row-blocked windows are at block t along the rows; the weights and the bias row are whole
    (block 0) at every point; every window is at block 0 along the columns. -/
theorem blocks : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The whole output, from the arrays as the kernel finds them. -/
abbrev result (c : Dev nD) : S100000x64.Idx → EReal :=
  rowScale (dense (V c main_v28 : S100000x128.Idx → EReal) (V c main_v17 : S100000x1.Idx → EReal) (V c main_arg4 : S128x64.Idx → EReal) (V c main_v29 : S1x64.Idx → EReal)) (V c main_v13 : S100000x1.Idx → EReal)

/-- What grid point t writes back is block t of the whole output: rows 5000·t … 5000·t + 4999 of the inputs give those
    rows of the result, the weights and the bias row being read whole. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S5000x1) hz, View.ld_unit_zero (S := S128x64) hz, View.ld_unit_zero (S := S1x64) hz]
  rw [layer128_eq]
  obtain ⟨e00, e01, e10, e11, e20, e21, e30, e31, e40, e41, e50, e51⟩ := blocks t
  funext y
  show rowScale (dense (iblk1 V c 0 t) (iblk1 V c 1 t) (iblk1 V c 2 t) (iblk1 V c 3 t)) (iblk1 V c 4 t) y = result V c (((cfg1.win 5).blk t).view.emb y)
  refine rowScale_dense_block _ _ _ _ _ _ _ _ _ _ y _ (fun q => ?_) ?_ ?_ ?_ ?_ ?_
  · refine congrArg (V c main_v28 : S100000x128.Idx → EReal) ?_
    funext a; apply Fin.ext
    match a with
    | ⟨0, _⟩ => show win1_0.index t (0 : Fin 2) * 5000 + 1 * (y 0).val = win1_5.index t (0 : Fin 2) * 5000 + 1 * (y 0).val; rw [e00, e50]
    | ⟨1, _⟩ => show win1_0.index t (1 : Fin 2) * 128 + 1 * q.val = q.val; rw [e01]; omega
  · refine congrArg (V c main_v17 : S100000x1.Idx → EReal) ?_
    funext a; apply Fin.ext
    match a with
    | ⟨0, _⟩ => show win1_1.index t (0 : Fin 2) * 5000 + 1 * (y 0).val = win1_5.index t (0 : Fin 2) * 5000 + 1 * (y 0).val; rw [e10, e50]
    | ⟨1, _⟩ => show win1_1.index t (1 : Fin 2) * 1 + 1 * 0 = 0; rw [e11]
  · funext z
    refine congrArg (V c main_arg4 : S128x64.Idx → EReal) ?_
    funext a; apply Fin.ext
    match a with
    | ⟨0, _⟩ => show win1_2.index t (0 : Fin 2) * 128 + 1 * (z 0).val = (z 0).val; rw [e20]; omega
    | ⟨1, _⟩ => show win1_2.index t (1 : Fin 2) * 64 + 1 * (z 1).val = (z 1).val; rw [e21]; omega
  · funext z
    refine congrArg (V c main_v29 : S1x64.Idx → EReal) ?_
    funext a; apply Fin.ext
    match a with
    | ⟨0, _⟩ => show win1_3.index t (0 : Fin 2) * 1 + 1 * (z 0).val = (z 0).val; rw [e30]; omega
    | ⟨1, _⟩ => show win1_3.index t (1 : Fin 2) * 64 + 1 * (z 1).val = (z 1).val; rw [e31]; omega
  · refine congrArg (V c main_v13 : S100000x1.Idx → EReal) ?_
    funext a; apply Fin.ext
    match a with
    | ⟨0, _⟩ => show win1_4.index t (0 : Fin 2) * 5000 + 1 * (y 0).val = win1_5.index t (0 : Fin 2) * 5000 + 1 * (y 0).val; rw [e40, e50]
    | ⟨1, _⟩ => show win1_4.index t (1 : Fin 2) * 1 + 1 * 0 = 0; rw [e41]
  · apply Fin.ext
    show (y 1).val = win1_5.index t (1 : Fin 2) * 64 + 1 * (y 1).val
    rw [e51]; omega

/-- An index of the output is in point t's block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v30).slice (win1_5.rect t)).set ↔ _
  rw [View.set_slice_whole, Rect.mem_set_unit]
  exact Iff.rfl

/-- Every row lies in some written-back block: row r in block r / 5000. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨e00, e01, e10, e11, e20, e21, e30, e31, e40, e41, e50, e51⟩ := blocks t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    rw [e50, ht]; omega
  | ⟨1, _⟩ =>
    show win1_5.index t (1 : Fin 2) * 64 ≤ (i 1).val ∧ (i 1).val < win1_5.index t (1 : Fin 2) * 64 + 64
    rw [e51]; omega

/-- The output array after the kernel. -/
theorem final (c : Dev nD) : (dat1 V c).arrAt 5 cfg1.N = result V c :=
  (dat1 V c).arrAt_eq_of_cover 5 (result V c) (fun t _ => flushed_eq V c t) cover

end Cert.KernelIdeal.Region1

end
-- ==== Proof.Region2.lean ====
/-
  The second dense-layer kernel's output array, whole (64 input features).

  The kernel walks the 100000 rows in 20 blocks of 5000; at block t it reads rows 5000·t … 5000·t + 4999 of the
  aggregated features and the same entries of the two columns of factors, the weights and the bias row whole, and writes
  those rows of the output. Its stored value is the dense layer on the block's scaled rows, scaled again; a row of that
  depends only on the same row of the inputs, so when all 20 blocks are written back the output is the same map of the
  whole arrays — whatever they held when the kernel was entered.
-/
import proofs.«124921_j80470507257933_1_alg».proof.Proof.Gen.KernelIdeal.Frame
import proofs.«124921_j80470507257933_1_alg».proof.Proof.Payloads
import proofs.«124921_j80470507257933_1_alg».proof.Proof.RowBlocks
import Idealize.ShloMosaic.Lib.Pipeline.Value

set_option maxRecDepth 16384

noncomputable section

namespace Cert.KernelIdeal.Region2

open Cert.KernelIdeal Cert.KernelIdeal.Gen Cert.KernelIdeal.Payloads Cert.RowMaps
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- At grid point t the row-blocked windows are at block t along the rows; the weights and the bias row are whole
    (block 0) at every point; every window is at block 0 along the columns. -/
theorem blocks : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- The whole output, from the arrays as the kernel finds them. -/
abbrev result (c : Dev nD) : S100000x64.Idx → EReal :=
  rowScale (dense (V c main_v40 : S100000x64.Idx → EReal) (V c main_v17 : S100000x1.Idx → EReal) (V c main_arg6 : S64x64.Idx → EReal) (V c main_v41 : S1x64.Idx → EReal)) (V c main_v13 : S100000x1.Idx → EReal)

/-- What grid point t writes back is block t of the whole output: rows 5000·t … 5000·t + 4999 of the inputs give those
    rows of the result, the weights and the bias row being read whole. -/
theorem flushed_eq (c : Dev nD) (t : Fin cfg2.N) :
    (dat2 V c).flushed 5 t = ((cfg2.win 5).blk t).view.read (Elt Ideal) (result V c) := by
  show (cfg2.win 5).cut (grid2.coords t) ((dat2 V c).after 5 t) = _
  rw [after2_5]
  unfold out2_5
  rw [View.canon_unit_zero hz]
  simp only [View.ld_unit_zero (S := S5000x64) hz, View.ld_unit_zero (S := S5000x1) hz, View.ld_unit_zero (S := S64x64) hz, View.ld_unit_zero (S := S1x64) hz]
  rw [layer64_eq]
  obtain ⟨e00, e01, e10, e11, e20, e21, e30, e31, e40, e41, e50, e51⟩ := blocks t
  funext y
  show rowScale (dense (iblk2 V c 0 t) (iblk2 V c 1 t) (iblk2 V c 2 t) (iblk2 V c 3 t)) (iblk2 V c 4 t) y = result V c (((cfg2.win 5).blk t).view.emb y)
  refine rowScale_dense_block _ _ _ _ _ _ _ _ _ _ y _ (fun q => ?_) ?_ ?_ ?_ ?_ ?_
  · refine congrArg (V c main_v40 : S100000x64.Idx → EReal) ?_
    funext a; apply Fin.ext
    match a with
    | ⟨0, _⟩ => show win2_0.index t (0 : Fin 2) * 5000 + 1 * (y 0).val = win2_5.index t (0 : Fin 2) * 5000 + 1 * (y 0).val; rw [e00, e50]
    | ⟨1, _⟩ => show win2_0.index t (1 : Fin 2) * 64 + 1 * q.val = q.val; rw [e01]; omega
  · refine congrArg (V c main_v17 : S100000x1.Idx → EReal) ?_
    funext a; apply Fin.ext
    match a with
    | ⟨0, _⟩ => show win2_1.index t (0 : Fin 2) * 5000 + 1 * (y 0).val = win2_5.index t (0 : Fin 2) * 5000 + 1 * (y 0).val; rw [e10, e50]
    | ⟨1, _⟩ => show win2_1.index t (1 : Fin 2) * 1 + 1 * 0 = 0; rw [e11]
  · funext z
    refine congrArg (V c main_arg6 : S64x64.Idx → EReal) ?_
    funext a; apply Fin.ext
    match a with
    | ⟨0, _⟩ => show win2_2.index t (0 : Fin 2) * 64 + 1 * (z 0).val = (z 0).val; rw [e20]; omega
    | ⟨1, _⟩ => show win2_2.index t (1 : Fin 2) * 64 + 1 * (z 1).val = (z 1).val; rw [e21]; omega
  · funext z
    refine congrArg (V c main_v41 : S1x64.Idx → EReal) ?_
    funext a; apply Fin.ext
    match a with
    | ⟨0, _⟩ => show win2_3.index t (0 : Fin 2) * 1 + 1 * (z 0).val = (z 0).val; rw [e30]; omega
    | ⟨1, _⟩ => show win2_3.index t (1 : Fin 2) * 64 + 1 * (z 1).val = (z 1).val; rw [e31]; omega
  · refine congrArg (V c main_v13 : S100000x1.Idx → EReal) ?_
    funext a; apply Fin.ext
    match a with
    | ⟨0, _⟩ => show win2_4.index t (0 : Fin 2) * 5000 + 1 * (y 0).val = win2_5.index t (0 : Fin 2) * 5000 + 1 * (y 0).val; rw [e40, e50]
    | ⟨1, _⟩ => show win2_4.index t (1 : Fin 2) * 1 + 1 * 0 = 0; rw [e41]
  · apply Fin.ext
    show (y 1).val = win2_5.index t (1 : Fin 2) * 64 + 1 * (y 1).val
    rw [e51]; omega

/-- An index of the output is in point t's block iff each coordinate is in the block's range on its axis. -/
theorem mem_blk (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v42).slice (win2_5.rect t)).set ↔ _
  rw [View.set_slice_whole, Rect.mem_set_unit]
  exact Iff.rfl

/-- Every row lies in some written-back block: row r in block r / 5000. -/
theorem cover (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨e00, e01, e10, e11, e20, e21, e30, e31, e40, e41, e50, e51⟩ := blocks t
  refine ⟨t, flush2_5 t, ?_⟩
  rw [mem_blk]
  intro a
  match a with
  | ⟨0, _⟩ =>
    show win2_5.index t (0 : Fin 2) * 5000 ≤ (i 0).val ∧ (i 0).val < win2_5.index t (0 : Fin 2) * 5000 + 5000
    rw [e50, ht]; omega
  | ⟨1, _⟩ =>
    show win2_5.index t (1 : Fin 2) * 64 ≤ (i 1).val ∧ (i 1).val < win2_5.index t (1 : Fin 2) * 64 + 64
    rw [e51]; omega

/-- The output array after the kernel. -/
theorem final (c : Dev nD) : (dat2 V c).arrAt 5 cfg2.N = result V c :=
  (dat2 V c).arrAt_eq_of_cover 5 (result V c) (fun t _ => flushed_eq V c t) cover

end Cert.KernelIdeal.Region2

end
-- ==== Proof.Region3.lean ====
/-
  The last dense-layer kernel's output array, whole: the program's result.

  The kernel walks the 100000 rows in 20 blocks of 5000; at block t it reads rows 5000·t … 5000·t + 4999 of the
  aggregated features and the same entries of the column of factors, the weights and the bias row whole, and writes
  those rows of the output. Its stored value is the dense layer on the block's scaled rows; a row of that depends only
  on the same row of the inputs, so when all 20 blocks are written back the output is the dense layer of the whole
  arrays — whatever they held when the kernel was entered.
-/
import proofs.«124921_j80470507257933_1_alg».proof.Proof.Gen.KernelIdeal.Frame
import proofs.«124921_j80470507257933_1_alg».proof.Proof.Payloads
import proofs.«124921_j80470507257933_1_alg».proof.Proof.RowBlocks
import Idealize.ShloMosaic.Lib.Pipeline.Value

set_option maxRecDepth 16384

noncomputable section

namespace Cert.KernelIdeal.Region3

open Cert.KernelIdeal Cert.KernelIdeal.Gen Cert.KernelIdeal.Payloads Cert.RowMaps
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- At grid point t the row-blocked windows are at block t along the rows; the weights and the bias row are whole
    (block 0) at every point; every window is at block 0 along the columns. -/
theorem blocks : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The whole output, from the arrays as the kernel finds them. -/
abbrev result (c : Dev nD) : S100000x64.Idx → EReal :=
  dense (V c main_v52 : S100000x64.Idx → EReal) (V c main_v17 : S100000x1.Idx → EReal) (V c main_arg8 : S64x64.Idx → EReal) (V c main_v53 : S1x64.Idx → EReal)

/-- What grid point t writes back is block t of the whole output: rows 5000·t … 5000·t + 4999 of the inputs give those
    rows of the result, the weights and the bias row being read whole. -/
theorem flushed_eq (c : Dev nD) (t : Fin cfg3.N) :
    (dat3 V c).flushed 4 t = ((cfg3.win 4).blk t).view.read (Elt Ideal) (result V c) := by
  show (cfg3.win 4).cut (grid3.coords t) ((dat3 V c).after 4 t) = _
  rw [after3_4]
  unfold out3_4
  rw [View.canon_unit_zero hz]
  simp only [View.ld_unit_zero (S := S5000x64) hz, View.ld_unit_zero (S := S5000x1) hz, View.ld_unit_zero (S := S64x64) hz, View.ld_unit_zero (S := S1x64) hz]
  rw [last_eq]
  obtain ⟨e00, e01, e10, e11, e20, e21, e30, e31, e40, e41⟩ := blocks t
  funext y
  show dense (iblk3 V c 0 t) (iblk3 V c 1 t) (iblk3 V c 2 t) (iblk3 V c 3 t) y = result V c (((cfg3.win 4).blk t).view.emb y)
  refine dense_block _ _ _ _ _ _ _ _ y _ (fun q => ?_) ?_ ?_ ?_ ?_
  · refine congrArg (V c main_v52 : S100000x64.Idx → EReal) ?_
    funext a; apply Fin.ext
    match a with
    | ⟨0, _⟩ => show win3_0.index t (0 : Fin 2) * 5000 + 1 * (y 0).val = win3_4.index t (0 : Fin 2) * 5000 + 1 * (y 0).val; rw [e00, e40]
    | ⟨1, _⟩ => show win3_0.index t (1 : Fin 2) * 64 + 1 * q.val = q.val; rw [e01]; omega
  · refine congrArg (V c main_v17 : S100000x1.Idx → EReal) ?_
    funext a; apply Fin.ext
    match a with
    | ⟨0, _⟩ => show win3_1.index t (0 : Fin 2) * 5000 + 1 * (y 0).val = win3_4.index t (0 : Fin 2) * 5000 + 1 * (y 0).val; rw [e10, e40]
    | ⟨1, _⟩ => show win3_1.index t (1 : Fin 2) * 1 + 1 * 0 = 0; rw [e11]
  · funext z
    refine congrArg (V c main_arg8 : S64x64.Idx → EReal) ?_
    funext a; apply Fin.ext
    match a with
    | ⟨0, _⟩ => show win3_2.index t (0 : Fin 2) * 64 + 1 * (z 0).val = (z 0).val; rw [e20]; omega
    | ⟨1, _⟩ => show win3_2.index t (1 : Fin 2) * 64 + 1 * (z 1).val = (z 1).val; rw [e21]; omega
  · funext z
    refine congrArg (V c main_v53 : S1x64.Idx → EReal) ?_
    funext a; apply Fin.ext
    match a with
    | ⟨0, _⟩ => show win3_3.index t (0 : Fin 2) * 1 + 1 * (z 0).val = (z 0).val; rw [e30]; omega
    | ⟨1, _⟩ => show win3_3.index t (1 : Fin 2) * 64 + 1 * (z 1).val = (z 1).val; rw [e31]; omega
  · apply Fin.ext
    show (y 1).val = win3_4.index t (1 : Fin 2) * 64 + 1 * (y 1).val
    rw [e41]; omega

/-- An index of the output is in point t's block iff each coordinate is in the block's range on its axis. -/
theorem mem_blk (t : Fin cfg3.N) (i : S100000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v54).slice (win3_4.rect t)).set ↔ _
  rw [View.set_slice_whole, Rect.mem_set_unit]
  exact Iff.rfl

/-- Every row lies in some written-back block: row r in block r / 5000. -/
theorem cover (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨e00, e01, e10, e11, e20, e21, e30, e31, e40, e41⟩ := blocks t
  refine ⟨t, flush3_4 t, ?_⟩
  rw [mem_blk]
  intro a
  match a with
  | ⟨0, _⟩ =>
    show win3_4.index t (0 : Fin 2) * 5000 ≤ (i 0).val ∧ (i 0).val < win3_4.index t (0 : Fin 2) * 5000 + 5000
    rw [e40, ht]; omega
  | ⟨1, _⟩ =>
    show win3_4.index t (1 : Fin 2) * 64 ≤ (i 1).val ∧ (i 1).val < win3_4.index t (1 : Fin 2) * 64 + 64
    rw [e41]; omega

/-- The output array after the kernel. -/
theorem final (c : Dev nD) : (dat3 V c).arrAt 4 cfg3.N = result V c :=
  (dat3 V c).arrAt_eq_of_cover 4 (result V c) (fun t _ => flushed_eq V c t) cover

end Cert.KernelIdeal.Region3

end
-- ==== Proof.HostMaps.lean ====
/-
  The whole-array maps that the program applies on the host between its kernels, each written once.

  A graph on 100000 nodes is given by two lists of 1600000 edge endpoints (sources and destinations); a self loop is
  added at every node, giving lists of 1700000 endpoints. A node's degree, on either side, is the number of entries of
  the list equal to it, and its normalising factor is 1 / sqrt(max(degree, 1)). One aggregation step reads the rows of a
  feature matrix at the edges' sources and sums them into the rows of the edges' destinations. These maps are
  compositions of the printed host operations and are never opened: the two programs apply the same ones, so equal
  arguments give equal results.
-/
import proofs.«124921_j80470507257933_1_alg».proof.Proof.Gen.KernelIdeal

noncomputable section

namespace Cert.KernelIdeal.HostMaps

open Cert.KernelIdeal Cert.KernelIdeal.Facts₀ Cert.KernelIdeal.Facts Idealize.ShloMosaic

variable {F : FTy → Type} [FloatOps F]

/-- An endpoint list with one self loop per node appended: the given 1600000 endpoints, then 0, 1, …, 99999. -/
def withLoops (a : (⟨S1600000, .i32⟩ : BufTy).Contents (Elt F)) : (⟨S1700000, .i32⟩ : BufTy).Contents (Elt F) :=
  concatenate S1700000 0 [⟨S1600000, a⟩, ⟨S100000, iotaInDim S100000 32 0⟩] concatenates_S1600000_S100000_S1700000_d0

/-- Per node, 1 / sqrt(max(d, 1)), where d is the number of entries of the endpoint list equal to the node: ones summed
    into the entries' nodes from zero, floored at one, then the reciprocal square root. -/
def invSqrtDegree (e : (⟨S1700000, .i32⟩ : BufTy).Contents (Elt F)) : (⟨S100000, .f32⟩ : BufTy).Contents (Elt F) :=
  Host.rsqrt (maximumf
    (Host.scatterAdd scatter_S100000_S1700000x1_S1700000_n_0_0_1
      (broadcastInDim S100000 ![] bcast_S_S100000 (constant S_ .f32 0x00000000#32))
      (broadcastInDim S1700000x1 ![0] bcast_S1700000_S1700000x1_0 e)
      (broadcastInDim S1700000 ![] bcast_S_S1700000 (constant S_ .f32 0x3F800000#32)))
    (broadcastInDim S100000 ![] bcast_S_S100000 (constant S_ .f32 0x3F800000#32)))

/-- An index list with its negative entries moved up by the number of nodes (the indexing rule for negative indices). -/
def wrapped (e : (⟨S1700000, .i32⟩ : BufTy).Contents (Elt F)) : (⟨S1700000, .i32⟩ : BufTy).Contents (Elt F) :=
  select (cmpi .slt e (broadcastInDim S1700000 ![] bcast_S_S1700000 (constantI S_ 32 0#32)))
    (addi e (broadcastInDim S1700000 ![] bcast_S_S1700000 (constantI S_ 32 100000#32))) e

/-- One aggregation step on 128 features: row r of the result is the sum, over the edges whose destination is r, of the
    source's row of x. -/
def aggregate128 (x : (⟨S100000x128, .f32⟩ : BufTy).Contents (Elt F)) (src dst : (⟨S1700000, .i32⟩ : BufTy).Contents (Elt F)) :
    (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 dst)
    (Host.gather gather_S100000x128_S1700000x1_S1700000x128_1_0_n_n_0_1_1128 x
      (broadcastInDim S1700000x1 ![0] bcast_S1700000_S1700000x1_0 (wrapped src)))

/-- The same step on 64 features. -/
def aggregate64 (x : (⟨S100000x64, .f32⟩ : BufTy).Contents (Elt F)) (src dst : (⟨S1700000, .i32⟩ : BufTy).Contents (Elt F)) :
    (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 dst)
    (Host.gather gather_S100000x64_S1700000x1_S1700000x64_1_0_n_n_0_1_164 x
      (broadcastInDim S1700000x1 ![0] bcast_S1700000_S1700000x1_0 (wrapped src)))

/-- A vector over the nodes as a column [100000, 1] (row-major positions kept). -/
def column (v : (⟨S100000, .f32⟩ : BufTy).Contents (Elt F)) : (⟨S100000x1, .f32⟩ : BufTy).Contents (Elt F) :=
  shapeCast S100000x1 v shapeCasts_S100000_S100000x1

/-- A bias vector as an array of one row [1, 64]. -/
def biasRow (b : (⟨S64, .f32⟩ : BufTy).Contents (Elt F)) : (⟨S1x64, .f32⟩ : BufTy).Contents (Elt F) :=
  shapeCast S1x64 b shapeCasts_S64_S1x64

end Cert.KernelIdeal.HostMaps

end
-- ==== Proof.Boundaries.lean ====
/-
  What each kernel region's input arrays hold when the region is entered.

  The program is a three-layer graph convolution: four kernel regions separated by four stretches of whole-array
  host operations. Each region's inputs are either arguments of the program, untouched since the launch, or arrays a
  host stretch computed: the two columns of normalising factors 1 / sqrt(max(degree, 1)) (computed once, before the
  first region, from the endpoint lists with a self loop added at every node, and only read afterwards), a bias
  vector laid out as a row, and one aggregation step (rows read at the edges' sources, summed into the rows of the
  edges' destinations) applied to the previous region's output. Each is stated as one of the named whole-array maps
  applied to the launch memory and to the previous region's output; nothing is evaluated.

  The statements follow the contents of eleven buffers (the two endpoint lists with their self loops, the two columns
  of factors and seven arguments) through the program's segment boundaries: a host stretch changes only the buffers its
  operations write, and a region changes only its output array.
-/
import proofs.«124921_j80470507257933_1_alg».proof.Proof.Gen.KernelIdeal.Frame
import proofs.«124921_j80470507257933_1_alg».proof.Proof.HostMaps
import Idealize.ShloMosaic.Lib.StableHlo.Run

set_option maxRecDepth 16384

noncomputable section

namespace Cert.KernelIdeal.Boundaries

open Cert.KernelIdeal Cert.KernelIdeal.Gen Cert.KernelIdeal.HostMaps Cert.KernelIdeal.Facts₀ Cert.KernelIdeal.Facts
open Idealize.ShloMosaic Idealize.ShloMosaic.TcCoe

variable {F : FTy → Type} [FloatOps F]
variable (m : (ℓ : Loc nD τ sig) → Buf (Elt F) ℓ) (ρ : Dev nD → PrngReg)

/-! ## Two ways a buffer keeps its contents

A stretch of host operations leaves a buffer none of them writes as it was; a kernel region leaves every buffer
that is not one of its arrays as it was, and each of its input arrays as entered. -/

/-- Closes `after ops V b = V b` for one of the program's four stretches `ops` and a buffer `b` that none of its
    operations writes: the operations' result buffers are listed and each is told apart from `b`. -/
macro "stretch_keeps" : tactic =>
  `(tactic| exact StableHlo.after_of_forall_not_mem _ _ (List.forall_iff_forall_mem.mp (by
      simp only [hostOps0, hostOps1, hostOps2, hostOps3, List.Forall, StableHlo.nullary_writes, StableHlo.unary_writes,
        StableHlo.binary_writes, StableHlo.ternary_writes, StableHlo.quaternary_writes, StableHlo.reshape_writes,
        StableHlo.binaryIndexed_writes, Finset.mem_singleton]
      repeat' apply And.intro
      all_goals exact StableHlo.devRef_ne_of_ne (by decide))))

/-- The same, followed by what the buffer held before the stretch. -/
macro "stretch_keeps_then " h:term : tactic => `(tactic| (refine Eq.trans ?_ $h; stretch_keeps))

/-- An input array of region 0 is, at the region's exit, what it was at its entry. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- An input array of region 1 is, at the region's exit, what it was at its entry. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))
/-- An input array of region 2 is, at the region's exit, what it was at its entry. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))

/-! ## What the stretches compute, over any contents of the buffers they read -/

/-- The first stretch leaves in `main_v1` the edge sources (`main_arg1`) with the self loops appended. -/
theorem stretch0_v1 (V : Valuation τ sig (Elt F)) :
    StableHlo.after hostOps0 V (Proc.devRef .tc main_v1) = withLoops (V (Proc.devRef .tc main_arg1)) := by
  simp only [hostOps0]
  after_results_simp
  rfl
/-- The first stretch leaves in `main_v2` the edge destinations (`main_arg2`) with the self loops appended. -/
theorem stretch0_v2 (V : Valuation τ sig (Elt F)) :
    StableHlo.after hostOps0 V (Proc.devRef .tc main_v2) = withLoops (V (Proc.devRef .tc main_arg2)) := by
  simp only [hostOps0]
  after_results_simp
  rfl
/-- The first stretch leaves in `main_v13` the column of the source-side normalising factors. -/
theorem stretch0_v13 (V : Valuation τ sig (Elt F)) :
    StableHlo.after hostOps0 V (Proc.devRef .tc main_v13) = column (invSqrtDegree (withLoops (V (Proc.devRef .tc main_arg1)))) := by
  simp only [hostOps0]
  after_results_simp
  rfl
/-- The first stretch leaves in `main_v17` the column of the destination-side normalising factors. -/
theorem stretch0_v17 (V : Valuation τ sig (Elt F)) :
    StableHlo.after hostOps0 V (Proc.devRef .tc main_v17) = column (invSqrtDegree (withLoops (V (Proc.devRef .tc main_arg2)))) := by
  simp only [hostOps0]
  after_results_simp
  rfl
/-- The second stretch leaves in `main_v28` one aggregation step on `main_v18` along the edges `main_v1` → `main_v2`. -/
theorem stretch1_v28 (V : Valuation τ sig (Elt F)) :
    StableHlo.after hostOps1 V (Proc.devRef .tc main_v28)
      = aggregate128 (V (Proc.devRef .tc main_v18)) (V (Proc.devRef .tc main_v1)) (V (Proc.devRef .tc main_v2)) := by
  simp only [hostOps1]
  after_results_simp
  rfl
/-- The second stretch leaves in `main_v29` the bias vector `main_arg5` as a row. -/
theorem stretch1_v29 (V : Valuation τ sig (Elt F)) :
    StableHlo.after hostOps1 V (Proc.devRef .tc main_v29) = biasRow (V (Proc.devRef .tc main_arg5)) := by
  simp only [hostOps1]
  after_results_simp
  rfl
/-- The third stretch leaves in `main_v40` one aggregation step on `main_v30` along the edges `main_v1` → `main_v2`. -/
theorem stretch2_v40 (V : Valuation τ sig (Elt F)) :
    StableHlo.after hostOps2 V (Proc.devRef .tc main_v40)
      = aggregate64 (V (Proc.devRef .tc main_v30)) (V (Proc.devRef .tc main_v1)) (V (Proc.devRef .tc main_v2)) := by
  simp only [hostOps2]
  after_results_simp
  rfl
/-- The third stretch leaves in `main_v41` the bias vector `main_arg7` as a row. -/
theorem stretch2_v41 (V : Valuation τ sig (Elt F)) :
    StableHlo.after hostOps2 V (Proc.devRef .tc main_v41) = biasRow (V (Proc.devRef .tc main_arg7)) := by
  simp only [hostOps2]
  after_results_simp
  rfl
/-- The fourth stretch leaves in `main_v52` one aggregation step on `main_v42` along the edges `main_v1` → `main_v2`. -/
theorem stretch3_v52 (V : Valuation τ sig (Elt F)) :
    StableHlo.after hostOps3 V (Proc.devRef .tc main_v52)
      = aggregate64 (V (Proc.devRef .tc main_v42)) (V (Proc.devRef .tc main_v1)) (V (Proc.devRef .tc main_v2)) := by
  simp only [hostOps3]
  after_results_simp
  rfl
/-- The fourth stretch leaves in `main_v53` the bias vector `main_arg9` as a row. -/
theorem stretch3_v53 (V : Valuation τ sig (Elt F)) :
    StableHlo.after hostOps3 V (Proc.devRef .tc main_v53) = biasRow (V (Proc.devRef .tc main_arg9)) := by
  simp only [hostOps3]
  after_results_simp
  rfl

/-! ## When region 0 is entered (after the first stretch of host operations)

The first stretch appends the self loops to the two endpoint lists, counts each node's occurrences on either side,
and turns the counts into the two columns of normalising factors. It writes none of the arguments. -/
/-- At region 0's entry: argument 0 as launched. -/
theorem W1_arg0 (c : Dev nD) :
    W1 m ρ c (Proc.devRef .tc main_arg0) = m ((c : Thread nD τ).loc main_arg0) := by
  show StableHlo.after hostOps0 _ (Proc.devRef .tc main_arg0) = _
  stretch_keeps
/-- At region 0's entry: argument 4 as launched. -/
theorem W1_arg4 (c : Dev nD) :
    W1 m ρ c (Proc.devRef .tc main_arg4) = m ((c : Thread nD τ).loc main_arg4) := by
  show StableHlo.after hostOps0 _ (Proc.devRef .tc main_arg4) = _
  stretch_keeps
/-- At region 0's entry: argument 5 as launched. -/
theorem W1_arg5 (c : Dev nD) :
    W1 m ρ c (Proc.devRef .tc main_arg5) = m ((c : Thread nD τ).loc main_arg5) := by
  show StableHlo.after hostOps0 _ (Proc.devRef .tc main_arg5) = _
  stretch_keeps
/-- At region 0's entry: argument 6 as launched. -/
theorem W1_arg6 (c : Dev nD) :
    W1 m ρ c (Proc.devRef .tc main_arg6) = m ((c : Thread nD τ).loc main_arg6) := by
  show StableHlo.after hostOps0 _ (Proc.devRef .tc main_arg6) = _
  stretch_keeps
/-- At region 0's entry: argument 7 as launched. -/
theorem W1_arg7 (c : Dev nD) :
    W1 m ρ c (Proc.devRef .tc main_arg7) = m ((c : Thread nD τ).loc main_arg7) := by
  show StableHlo.after hostOps0 _ (Proc.devRef .tc main_arg7) = _
  stretch_keeps
/-- At region 0's entry: argument 8 as launched. -/
theorem W1_arg8 (c : Dev nD) :
    W1 m ρ c (Proc.devRef .tc main_arg8) = m ((c : Thread nD τ).loc main_arg8) := by
  show StableHlo.after hostOps0 _ (Proc.devRef .tc main_arg8) = _
  stretch_keeps
/-- At region 0's entry: argument 9 as launched. -/
theorem W1_arg9 (c : Dev nD) :
    W1 m ρ c (Proc.devRef .tc main_arg9) = m ((c : Thread nD τ).loc main_arg9) := by
  show StableHlo.after hostOps0 _ (Proc.devRef .tc main_arg9) = _
  stretch_keeps
/-- At region 0's entry: the edge sources with the self loops appended. -/
theorem W1_v1 (c : Dev nD) :
    W1 m ρ c (Proc.devRef .tc main_v1) = withLoops (m ((c : Thread nD τ).loc main_arg1)) := stretch0_v1 _
/-- At region 0's entry: the edge destinations with the self loops appended. -/
theorem W1_v2 (c : Dev nD) :
    W1 m ρ c (Proc.devRef .tc main_v2) = withLoops (m ((c : Thread nD τ).loc main_arg2)) := stretch0_v2 _
/-- At region 0's entry: the column of the source-side normalising factors. -/
theorem W1_v13 (c : Dev nD) :
    W1 m ρ c (Proc.devRef .tc main_v13) = column (invSqrtDegree (withLoops (m ((c : Thread nD τ).loc main_arg1)))) := stretch0_v13 _
/-- At region 0's entry: the column of the destination-side normalising factors. -/
theorem W1_v17 (c : Dev nD) :
    W1 m ρ c (Proc.devRef .tc main_v17) = column (invSqrtDegree (withLoops (m ((c : Thread nD τ).loc main_arg2)))) := stretch0_v17 _

/-- Region 0 is entered with the node features as launched. -/
theorem V1_main_arg0 (c : Dev nD) : V1 m ρ c main_arg0 = m ((c : Thread nD τ).loc main_arg0) := W1_arg0 m ρ c
/-- Region 0 is entered with the column of the source-side normalising factors. -/
theorem V1_main_v13 (c : Dev nD) : V1 m ρ c main_v13 = column (invSqrtDegree (withLoops (m ((c : Thread nD τ).loc main_arg1)))) := W1_v13 m ρ c

/-! ## When region 0 is left -/
/-- At region 0's exit: the edge sources with the self loops appended. -/
theorem W2_v1 (c : Dev nD) :
    W2 m ρ c (Proc.devRef .tc main_v1) = withLoops (m ((c : Thread nD τ).loc main_arg1)) := (W2_of_ne m ρ c main_v1 (by decide)).trans (W1_v1 m ρ c)
/-- At region 0's exit: the edge destinations with the self loops appended. -/
theorem W2_v2 (c : Dev nD) :
    W2 m ρ c (Proc.devRef .tc main_v2) = withLoops (m ((c : Thread nD τ).loc main_arg2)) := (W2_of_ne m ρ c main_v2 (by decide)).trans (W1_v2 m ρ c)
/-- At region 0's exit: the column of the destination-side normalising factors. -/
theorem W2_v17 (c : Dev nD) :
    W2 m ρ c (Proc.devRef .tc main_v17) = column (invSqrtDegree (withLoops (m ((c : Thread nD τ).loc main_arg2)))) := (W2_of_ne m ρ c main_v17 (by decide)).trans (W1_v17 m ρ c)
/-- At region 0's exit: argument 4 as launched. -/
theorem W2_arg4 (c : Dev nD) :
    W2 m ρ c (Proc.devRef .tc main_arg4) = m ((c : Thread nD τ).loc main_arg4) := (W2_of_ne m ρ c main_arg4 (by decide)).trans (W1_arg4 m ρ c)
/-- At region 0's exit: argument 5 as launched. -/
theorem W2_arg5 (c : Dev nD) :
    W2 m ρ c (Proc.devRef .tc main_arg5) = m ((c : Thread nD τ).loc main_arg5) := (W2_of_ne m ρ c main_arg5 (by decide)).trans (W1_arg5 m ρ c)
/-- At region 0's exit: argument 6 as launched. -/
theorem W2_arg6 (c : Dev nD) :
    W2 m ρ c (Proc.devRef .tc main_arg6) = m ((c : Thread nD τ).loc main_arg6) := (W2_of_ne m ρ c main_arg6 (by decide)).trans (W1_arg6 m ρ c)
/-- At region 0's exit: argument 7 as launched. -/
theorem W2_arg7 (c : Dev nD) :
    W2 m ρ c (Proc.devRef .tc main_arg7) = m ((c : Thread nD τ).loc main_arg7) := (W2_of_ne m ρ c main_arg7 (by decide)).trans (W1_arg7 m ρ c)
/-- At region 0's exit: argument 8 as launched. -/
theorem W2_arg8 (c : Dev nD) :
    W2 m ρ c (Proc.devRef .tc main_arg8) = m ((c : Thread nD τ).loc main_arg8) := (W2_of_ne m ρ c main_arg8 (by decide)).trans (W1_arg8 m ρ c)
/-- At region 0's exit: argument 9 as launched. -/
theorem W2_arg9 (c : Dev nD) :
    W2 m ρ c (Proc.devRef .tc main_arg9) = m ((c : Thread nD τ).loc main_arg9) := (W2_of_ne m ρ c main_arg9 (by decide)).trans (W1_arg9 m ρ c)
/-- At region 0's exit: the column of the source-side normalising factors (an input of the region). -/
theorem W2_v13 (c : Dev nD) :
    W2 m ρ c (Proc.devRef .tc main_v13) = column (invSqrtDegree (withLoops (m ((c : Thread nD τ).loc main_arg1)))) := (W2_in m ρ c 1 rfl).trans (W1_v13 m ρ c)

/-! ## When region 1 is entered (after the second stretch)

The second stretch reads the rows of region 0's output at the edges' sources and sums them into the rows of the
edges' destinations (one aggregation step on 128 features), and lays the first bias vector out as a row. It reads
the two endpoint lists and writes none of the other buffers followed here. -/
/-- At region 1's entry: the edge sources with the self loops appended. -/
theorem W3_v1 (c : Dev nD) :
    W3 m ρ c (Proc.devRef .tc main_v1) = withLoops (m ((c : Thread nD τ).loc main_arg1)) := by
  stretch_keeps_then (W2_v1 m ρ c)
/-- At region 1's entry: the edge destinations with the self loops appended. -/
theorem W3_v2 (c : Dev nD) :
    W3 m ρ c (Proc.devRef .tc main_v2) = withLoops (m ((c : Thread nD τ).loc main_arg2)) := by
  stretch_keeps_then (W2_v2 m ρ c)
/-- At region 1's entry: the column of the source-side normalising factors. -/
theorem W3_v13 (c : Dev nD) :
    W3 m ρ c (Proc.devRef .tc main_v13) = column (invSqrtDegree (withLoops (m ((c : Thread nD τ).loc main_arg1)))) := by
  stretch_keeps_then (W2_v13 m ρ c)
/-- At region 1's entry: the column of the destination-side normalising factors. -/
theorem W3_v17 (c : Dev nD) :
    W3 m ρ c (Proc.devRef .tc main_v17) = column (invSqrtDegree (withLoops (m ((c : Thread nD τ).loc main_arg2)))) := by
  stretch_keeps_then (W2_v17 m ρ c)
/-- At region 1's entry: argument 4 as launched. -/
theorem W3_arg4 (c : Dev nD) :
    W3 m ρ c (Proc.devRef .tc main_arg4) = m ((c : Thread nD τ).loc main_arg4) := by
  stretch_keeps_then (W2_arg4 m ρ c)
/-- At region 1's entry: argument 6 as launched. -/
theorem W3_arg6 (c : Dev nD) :
    W3 m ρ c (Proc.devRef .tc main_arg6) = m ((c : Thread nD τ).loc main_arg6) := by
  stretch_keeps_then (W2_arg6 m ρ c)
/-- At region 1's entry: argument 7 as launched. -/
theorem W3_arg7 (c : Dev nD) :
    W3 m ρ c (Proc.devRef .tc main_arg7) = m ((c : Thread nD τ).loc main_arg7) := by
  stretch_keeps_then (W2_arg7 m ρ c)
/-- At region 1's entry: argument 8 as launched. -/
theorem W3_arg8 (c : Dev nD) :
    W3 m ρ c (Proc.devRef .tc main_arg8) = m ((c : Thread nD τ).loc main_arg8) := by
  stretch_keeps_then (W2_arg8 m ρ c)
/-- At region 1's entry: argument 9 as launched. -/
theorem W3_arg9 (c : Dev nD) :
    W3 m ρ c (Proc.devRef .tc main_arg9) = m ((c : Thread nD τ).loc main_arg9) := by
  stretch_keeps_then (W2_arg9 m ρ c)

/-- Region 1 is entered with one aggregation step applied to region 0's output. -/
theorem V3_main_v28 (c : Dev nD) :
    V3 m ρ c main_v28 = aggregate128 (W2 m ρ c (Proc.devRef .tc main_v18)) (withLoops (m ((c : Thread nD τ).loc main_arg1))) (withLoops (m ((c : Thread nD τ).loc main_arg2))) := by
  refine (stretch1_v28 (W2 m ρ c)).trans ?_
  rw [W2_v1, W2_v2]
/-- Region 1 is entered with the column of the destination-side normalising factors. -/
theorem V3_main_v17 (c : Dev nD) : V3 m ρ c main_v17 = column (invSqrtDegree (withLoops (m ((c : Thread nD τ).loc main_arg2)))) := W3_v17 m ρ c
/-- Region 1 is entered with the first weight matrix as launched. -/
theorem V3_main_arg4 (c : Dev nD) : V3 m ρ c main_arg4 = m ((c : Thread nD τ).loc main_arg4) := W3_arg4 m ρ c
/-- Region 1 is entered with the first bias vector as a row. -/
theorem V3_main_v29 (c : Dev nD) : V3 m ρ c main_v29 = biasRow (m ((c : Thread nD τ).loc main_arg5)) := by
  refine (stretch1_v29 (W2 m ρ c)).trans ?_
  rw [W2_arg5]
/-- Region 1 is entered with the column of the source-side normalising factors. -/
theorem V3_main_v13 (c : Dev nD) : V3 m ρ c main_v13 = column (invSqrtDegree (withLoops (m ((c : Thread nD τ).loc main_arg1)))) := W3_v13 m ρ c

/-! ## When region 1 is left -/
/-- At region 1's exit: the edge sources with the self loops appended. -/
theorem W4_v1 (c : Dev nD) :
    W4 m ρ c (Proc.devRef .tc main_v1) = withLoops (m ((c : Thread nD τ).loc main_arg1)) := (W4_of_ne m ρ c main_v1 (by decide)).trans (W3_v1 m ρ c)
/-- At region 1's exit: the edge destinations with the self loops appended. -/
theorem W4_v2 (c : Dev nD) :
    W4 m ρ c (Proc.devRef .tc main_v2) = withLoops (m ((c : Thread nD τ).loc main_arg2)) := (W4_of_ne m ρ c main_v2 (by decide)).trans (W3_v2 m ρ c)
/-- At region 1's exit: argument 6 as launched. -/
theorem W4_arg6 (c : Dev nD) :
    W4 m ρ c (Proc.devRef .tc main_arg6) = m ((c : Thread nD τ).loc main_arg6) := (W4_of_ne m ρ c main_arg6 (by decide)).trans (W3_arg6 m ρ c)
/-- At region 1's exit: argument 7 as launched. -/
theorem W4_arg7 (c : Dev nD) :
    W4 m ρ c (Proc.devRef .tc main_arg7) = m ((c : Thread nD τ).loc main_arg7) := (W4_of_ne m ρ c main_arg7 (by decide)).trans (W3_arg7 m ρ c)
/-- At region 1's exit: argument 8 as launched. -/
theorem W4_arg8 (c : Dev nD) :
    W4 m ρ c (Proc.devRef .tc main_arg8) = m ((c : Thread nD τ).loc main_arg8) := (W4_of_ne m ρ c main_arg8 (by decide)).trans (W3_arg8 m ρ c)
/-- At region 1's exit: argument 9 as launched. -/
theorem W4_arg9 (c : Dev nD) :
    W4 m ρ c (Proc.devRef .tc main_arg9) = m ((c : Thread nD τ).loc main_arg9) := (W4_of_ne m ρ c main_arg9 (by decide)).trans (W3_arg9 m ρ c)
/-- At region 1's exit: the column of the destination-side normalising factors (an input of the region). -/
theorem W4_v17 (c : Dev nD) :
    W4 m ρ c (Proc.devRef .tc main_v17) = column (invSqrtDegree (withLoops (m ((c : Thread nD τ).loc main_arg2)))) := (W4_in m ρ c 1 rfl).trans (W3_v17 m ρ c)
/-- At region 1's exit: the column of the source-side normalising factors (an input of the region). -/
theorem W4_v13 (c : Dev nD) :
    W4 m ρ c (Proc.devRef .tc main_v13) = column (invSqrtDegree (withLoops (m ((c : Thread nD τ).loc main_arg1)))) := (W4_in m ρ c 4 rfl).trans (W3_v13 m ρ c)

/-! ## When region 2 is entered (after the third stretch)

The third stretch is the aggregation step on 64 features applied to region 1's output, and the second bias vector
laid out as a row. -/
/-- At region 2's entry: the edge sources with the self loops appended. -/
theorem W5_v1 (c : Dev nD) :
    W5 m ρ c (Proc.devRef .tc main_v1) = withLoops (m ((c : Thread nD τ).loc main_arg1)) := by
  stretch_keeps_then (W4_v1 m ρ c)
/-- At region 2's entry: the edge destinations with the self loops appended. -/
theorem W5_v2 (c : Dev nD) :
    W5 m ρ c (Proc.devRef .tc main_v2) = withLoops (m ((c : Thread nD τ).loc main_arg2)) := by
  stretch_keeps_then (W4_v2 m ρ c)
/-- At region 2's entry: the column of the source-side normalising factors. -/
theorem W5_v13 (c : Dev nD) :
    W5 m ρ c (Proc.devRef .tc main_v13) = column (invSqrtDegree (withLoops (m ((c : Thread nD τ).loc main_arg1)))) := by
  stretch_keeps_then (W4_v13 m ρ c)
/-- At region 2's entry: the column of the destination-side normalising factors. -/
theorem W5_v17 (c : Dev nD) :
    W5 m ρ c (Proc.devRef .tc main_v17) = column (invSqrtDegree (withLoops (m ((c : Thread nD τ).loc main_arg2)))) := by
  stretch_keeps_then (W4_v17 m ρ c)
/-- At region 2's entry: argument 6 as launched. -/
theorem W5_arg6 (c : Dev nD) :
    W5 m ρ c (Proc.devRef .tc main_arg6) = m ((c : Thread nD τ).loc main_arg6) := by
  stretch_keeps_then (W4_arg6 m ρ c)
/-- At region 2's entry: argument 8 as launched. -/
theorem W5_arg8 (c : Dev nD) :
    W5 m ρ c (Proc.devRef .tc main_arg8) = m ((c : Thread nD τ).loc main_arg8) := by
  stretch_keeps_then (W4_arg8 m ρ c)
/-- At region 2's entry: argument 9 as launched. -/
theorem W5_arg9 (c : Dev nD) :
    W5 m ρ c (Proc.devRef .tc main_arg9) = m ((c : Thread nD τ).loc main_arg9) := by
  stretch_keeps_then (W4_arg9 m ρ c)

/-- Region 2 is entered with one aggregation step applied to region 1's output. -/
theorem V5_main_v40 (c : Dev nD) :
    V5 m ρ c main_v40 = aggregate64 (W4 m ρ c (Proc.devRef .tc main_v30)) (withLoops (m ((c : Thread nD τ).loc main_arg1))) (withLoops (m ((c : Thread nD τ).loc main_arg2))) := by
  refine (stretch2_v40 (W4 m ρ c)).trans ?_
  rw [W4_v1, W4_v2]
/-- Region 2 is entered with the column of the destination-side normalising factors. -/
theorem V5_main_v17 (c : Dev nD) : V5 m ρ c main_v17 = column (invSqrtDegree (withLoops (m ((c : Thread nD τ).loc main_arg2)))) := W5_v17 m ρ c
/-- Region 2 is entered with the second weight matrix as launched. -/
theorem V5_main_arg6 (c : Dev nD) : V5 m ρ c main_arg6 = m ((c : Thread nD τ).loc main_arg6) := W5_arg6 m ρ c
/-- Region 2 is entered with the second bias vector as a row. -/
theorem V5_main_v41 (c : Dev nD) : V5 m ρ c main_v41 = biasRow (m ((c : Thread nD τ).loc main_arg7)) := by
  refine (stretch2_v41 (W4 m ρ c)).trans ?_
  rw [W4_arg7]
/-- Region 2 is entered with the column of the source-side normalising factors. -/
theorem V5_main_v13 (c : Dev nD) : V5 m ρ c main_v13 = column (invSqrtDegree (withLoops (m ((c : Thread nD τ).loc main_arg1)))) := W5_v13 m ρ c

/-! ## When region 2 is left -/
/-- At region 2's exit: the edge sources with the self loops appended. -/
theorem W6_v1 (c : Dev nD) :
    W6 m ρ c (Proc.devRef .tc main_v1) = withLoops (m ((c : Thread nD τ).loc main_arg1)) := (W6_of_ne m ρ c main_v1 (by decide)).trans (W5_v1 m ρ c)
/-- At region 2's exit: the edge destinations with the self loops appended. -/
theorem W6_v2 (c : Dev nD) :
    W6 m ρ c (Proc.devRef .tc main_v2) = withLoops (m ((c : Thread nD τ).loc main_arg2)) := (W6_of_ne m ρ c main_v2 (by decide)).trans (W5_v2 m ρ c)
/-- At region 2's exit: argument 8 as launched. -/
theorem W6_arg8 (c : Dev nD) :
    W6 m ρ c (Proc.devRef .tc main_arg8) = m ((c : Thread nD τ).loc main_arg8) := (W6_of_ne m ρ c main_arg8 (by decide)).trans (W5_arg8 m ρ c)
/-- At region 2's exit: argument 9 as launched. -/
theorem W6_arg9 (c : Dev nD) :
    W6 m ρ c (Proc.devRef .tc main_arg9) = m ((c : Thread nD τ).loc main_arg9) := (W6_of_ne m ρ c main_arg9 (by decide)).trans (W5_arg9 m ρ c)
/-- At region 2's exit: the column of the destination-side normalising factors (an input of the region). -/
theorem W6_v17 (c : Dev nD) :
    W6 m ρ c (Proc.devRef .tc main_v17) = column (invSqrtDegree (withLoops (m ((c : Thread nD τ).loc main_arg2)))) := (W6_in m ρ c 1 rfl).trans (W5_v17 m ρ c)

/-! ## When region 3 is entered (after the fourth stretch)

The fourth stretch is the aggregation step on 64 features applied to region 2's output, and the third bias vector
laid out as a row. -/
/-- At region 3's entry: the column of the destination-side normalising factors. -/
theorem W7_v17 (c : Dev nD) :
    W7 m ρ c (Proc.devRef .tc main_v17) = column (invSqrtDegree (withLoops (m ((c : Thread nD τ).loc main_arg2)))) := by
  stretch_keeps_then (W6_v17 m ρ c)
/-- At region 3's entry: argument 8 as launched. -/
theorem W7_arg8 (c : Dev nD) :
    W7 m ρ c (Proc.devRef .tc main_arg8) = m ((c : Thread nD τ).loc main_arg8) := by
  stretch_keeps_then (W6_arg8 m ρ c)

/-- Region 3 is entered with one aggregation step applied to region 2's output. -/
theorem V7_main_v52 (c : Dev nD) :
    V7 m ρ c main_v52 = aggregate64 (W6 m ρ c (Proc.devRef .tc main_v42)) (withLoops (m ((c : Thread nD τ).loc main_arg1))) (withLoops (m ((c : Thread nD τ).loc main_arg2))) := by
  refine (stretch3_v52 (W6 m ρ c)).trans ?_
  rw [W6_v1, W6_v2]
/-- Region 3 is entered with the column of the destination-side normalising factors. -/
theorem V7_main_v17 (c : Dev nD) : V7 m ρ c main_v17 = column (invSqrtDegree (withLoops (m ((c : Thread nD τ).loc main_arg2)))) := W7_v17 m ρ c
/-- Region 3 is entered with the third weight matrix as launched. -/
theorem V7_main_arg8 (c : Dev nD) : V7 m ρ c main_arg8 = m ((c : Thread nD τ).loc main_arg8) := W7_arg8 m ρ c
/-- Region 3 is entered with the third bias vector as a row. -/
theorem V7_main_v53 (c : Dev nD) : V7 m ρ c main_v53 = biasRow (m ((c : Thread nD τ).loc main_arg9)) := by
  refine (stretch3_v53 (W6 m ρ c)).trans ?_
  rw [W6_arg9]

end Cert.KernelIdeal.Boundaries

end
-- ==== Proof.ReferenceLayers.lean ====
/-
  The reference computation as a composition of whole-array maps.

  The reference applies three graph-convolution layers to a feature matrix on 100000 nodes. Write on and inn for the
  columns of normalising factors 1 / sqrt(max(degree, 1)) taken from the out-degrees and the in-degrees of the graph with
  a self loop added at every node. One layer takes h to ((S (h · on)) · inn) W + b: every row of h is scaled by the
  node's entry of on, S sums into each node the rows of the sources of its incoming edges, every row of the sum is scaled
  by the node's entry of inn and multiplied by the weight matrix W, and the bias row b is added to every row.

  Read in the order the operations are applied, the scaling by on that opens the next layer is applied to the result of
  the dense step of the layer before. So the whole computation is: scale by on, aggregate, dense step, scale by on,
  aggregate, dense step, scale by on, aggregate, dense step. This module proves that, one step at a time, at the ideal
  instance where every float is an extended real and every operation is exact. The aggregation steps are never opened:
  the reference applies the same gather and scatter-add, with the same dimension numbers, to the same edge lists. The
  scalings and dense steps are read entry by entry: a product with a column broadcast along the rows is a row scaling,
  a dot product with plain matrix-product dimension numbers is the matrix product, and a bias vector broadcast to one
  row and then to every row adds entry q of the vector to column q.
-/
import proofs.«124921_j80470507257933_1_alg».proof.Proof.Gen.KernelIdeal
import proofs.«124921_j80470507257933_1_alg».proof.Proof.Gen.ReferenceIdeal
import proofs.«124921_j80470507257933_1_alg».proof.Proof.Gen.ReferenceIdeal.Read
import proofs.«124921_j80470507257933_1_alg».proof.Proof.RowMaps
import proofs.«124921_j80470507257933_1_alg».proof.Proof.HostMaps
import Idealize.ShloMosaic.Lib.ValueLayout
import Idealize.ShloMosaic.Lib.Pipeline.Value

noncomputable section

open scoped BigOperators

namespace Cert.ReferenceIdeal.Layers

open Cert.ReferenceIdeal Cert.ReferenceIdeal.Gen Cert.ReferenceIdeal.Read Idealize.ShloMosaic Idealize.ShloMosaic.ValueIdx
  Idealize.ShloMosaic.MatProd Idealize.ShloMosaic.DotPlain Cert.RowMaps Cert.KernelIdeal.HostMaps

/-- A vector of extended reals with one entry per node. -/
abbrev NodeVec := (⟨1, ![100000]⟩ : Shape).Idx → EReal
/-- A bias vector of 64 extended reals. -/
abbrev BiasVec := (⟨1, ![64]⟩ : Shape).Idx → EReal
/-- A list of 1600000 edge endpoints. -/
abbrev Ends := (⟨S1600000, .i32⟩ : BufTy).Contents (Elt Ideal)
/-- A list of 1700000 edge endpoints (the self loops included). -/
abbrev LoopEnds := (⟨S1700000, .i32⟩ : BufTy).Contents (Elt Ideal)

/-! ## The two reshapes read at an entry -/

/-- Entry (p, 0) of a vector made a column is entry p of the vector. -/
theorem column_apply (v : NodeVec) (p : Fin 100000) (u : Fin 1) : column (F := Ideal) v (ix2 p u) = v (ix1 p) := by
  unfold column
  refine shapeCast_apply v _ (ix2 p u) (ix1 p) ?_
  rw [Shape.rowMajor_val_two, Shape.rowMajor_val_one]
  show p.val = p.val * 1 + u.val
  omega

/-- Entry (0, q) of a vector made a row is entry q of the vector. -/
theorem biasRow_apply (b : BiasVec) (u : Fin 1) (q : Fin 64) : biasRow (F := Ideal) b (ix2 u q) = b (ix1 q) := by
  unfold biasRow
  exact shapeCast_a_1a_apply b _ u q

/-! ## Scaling and the dense step, for any arrays that read as the broadcasts do -/

/-- The entrywise product of x with an array whose entry (p, q) is entry p of a vector v is x with its rows scaled by
    v as a column. -/
theorem mulf_eq_rowScale {c : ℕ} (x bc : Mat 100000 c) (v : NodeVec)
    (h : ∀ (p : Fin 100000) (q : Fin c), bc (ix2 p q) = v (ix1 p)) :
    mulf (F := Ideal) (φ := .f32) x bc = rowScale x (column (F := Ideal) v) := by
  funext j
  obtain ⟨p, q, rfl⟩ : ∃ (p : Fin 100000) (q : Fin c), j = ix2 p q := ⟨j 0, j 1, eq_ix2 j⟩
  rw [mulf_apply, rowScale_apply, h, column_apply]

/-- A plain dot product of (x times an array reading as the vector vin along the rows) with w, plus an array whose
    entry (p, q) is entry q of a vector b, is the dense step on the rows of x scaled by vin, with bias row b. -/
theorem addf_dot_eq_dense {k : ℕ} {d : DotDims ⟨2, ![100000, k]⟩ ⟨2, ![k, 64]⟩ ⟨2, ![100000, 64]⟩} (hd : IsPlain d)
    (x bin : Mat 100000 k) (vin : NodeVec) (w : Mat k 64) (b : BiasVec) (bb : Mat 100000 64)
    (hin : ∀ (p : Fin 100000) (q : Fin k), bin (ix2 p q) = vin (ix1 p))
    (hb : ∀ (p : Fin 100000) (q : Fin 64), bb (ix2 p q) = b (ix1 q)) :
    addf (F := Ideal) (φ := .f32)
        (Host.dotGeneral (F := Ideal) (φ₁ := .f32) (φ₂ := .f32) d none (mulf (F := Ideal) (φ := .f32) x bin) w) bb
      = dense x (column (F := Ideal) vin) w (biasRow (F := Ideal) b) := by
  rw [mulf_eq_rowScale x bin vin hin, dotGeneral_eq hd]
  funext j
  obtain ⟨p, q, rfl⟩ : ∃ (p : Fin 100000) (q : Fin 64), j = ix2 p q := ⟨j 0, j 1, eq_ix2 j⟩
  rw [addf_apply, dense_apply, hb, biasRow_apply]

/-- The reference's two dot products have plain matrix-product dimension numbers. -/
theorem plain128 : IsPlain dot_S100000x128_S128x64_S100000x64_1_0_0_1_n_n := ⟨rfl, rfl, rfl, rfl, rfl, rfl⟩
theorem plain64 : IsPlain dot_S100000x64_S64x64_S100000x64_1_0_0_1_n_n := ⟨rfl, rfl, rfl, rfl, rfl, rfl⟩

/-! ## The reference's broadcast stages read at an entry

The reference broadcasts each normalising vector first to a column and then along the rows, and each bias vector first
to one row and then to every row. Entry (p, q) of the first kind of array is entry p of the vector; entry (p, q) of the
second kind is entry q of the vector. -/

/-- Two coordinate functions into a rank-1 index set agree when their one coordinate does. -/
private theorem idx1_ext {n : ℕ} {i j : (⟨1, ![n]⟩ : Shape).Idx} (h : (i 0).val = (j 0).val) : i = j :=
  funext fun a => Fin.ext (by match a with | ⟨0, _⟩ => exact h)

/-- A feature matrix: 128 features per node. -/
abbrev Feat128 := (⟨S100000x128, .f32⟩ : BufTy).Contents (Elt Ideal)
/-- A feature matrix: 64 features per node. -/
abbrev Feat64 := (⟨S100000x64, .f32⟩ : BufTy).Contents (Elt Ideal)
/-- The first layer's weights. -/
abbrev W128 := (⟨S128x64, .f32⟩ : BufTy).Contents (Elt Ideal)
/-- A later layer's weights. -/
abbrev W64 := (⟨S64x64, .f32⟩ : BufTy).Contents (Elt Ideal)
/-- A layer's bias. -/
abbrev Bias := (⟨S64, .f32⟩ : BufTy).Contents (Elt Ideal)

theorem v17_at (x1 : Ends) (p : Fin 100000) (q : Fin 128) :
    val_main_v17 (F := Ideal) x1 (ix2 p q) = val_main_v12 (F := Ideal) x1 (ix1 p) := by
  rw [val_main_v17_apply, val_main_v16_apply]; exact congrArg _ (idx1_ext rfl)

theorem v30_at (x2 : Ends) (p : Fin 100000) (q : Fin 128) :
    val_main_v30 (F := Ideal) x2 (ix2 p q) = val_main_v15 (F := Ideal) x2 (ix1 p) := by
  rw [val_main_v30_apply, val_main_v29_apply]; exact congrArg _ (idx1_ext rfl)

theorem v37_at (x1 : Ends) (p : Fin 100000) (q : Fin 64) :
    val_main_v37 (F := Ideal) x1 (ix2 p q) = val_main_v12 (F := Ideal) x1 (ix1 p) := by
  rw [val_main_v37_apply, val_main_v36_apply]; exact congrArg _ (idx1_ext rfl)

theorem v50_at (x2 : Ends) (p : Fin 100000) (q : Fin 64) :
    val_main_v50 (F := Ideal) x2 (ix2 p q) = val_main_v15 (F := Ideal) x2 (ix1 p) := by
  rw [val_main_v50_apply, val_main_v49_apply]; exact congrArg _ (idx1_ext rfl)

theorem v57_at (x1 : Ends) (p : Fin 100000) (q : Fin 64) :
    val_main_v57 (F := Ideal) x1 (ix2 p q) = val_main_v12 (F := Ideal) x1 (ix1 p) := by
  rw [val_main_v57_apply, val_main_v56_apply]; exact congrArg _ (idx1_ext rfl)

theorem v70_at (x2 : Ends) (p : Fin 100000) (q : Fin 64) :
    val_main_v70 (F := Ideal) x2 (ix2 p q) = val_main_v15 (F := Ideal) x2 (ix1 p) := by
  rw [val_main_v70_apply, val_main_v69_apply]; exact congrArg _ (idx1_ext rfl)

theorem v34_at (x5 : Bias) (p : Fin 100000) (q : Fin 64) : val_main_v34 (F := Ideal) x5 (ix2 p q) = x5 (ix1 q) := by
  rw [val_main_v34_apply, val_main_v33_apply]; exact congrArg _ (idx1_ext rfl)

theorem v54_at (x7 : Bias) (p : Fin 100000) (q : Fin 64) : val_main_v54 (F := Ideal) x7 (ix2 p q) = x7 (ix1 q) := by
  rw [val_main_v54_apply, val_main_v53_apply]; exact congrArg _ (idx1_ext rfl)

theorem v74_at (x9 : Bias) (p : Fin 100000) (q : Fin 64) : val_main_v74 (F := Ideal) x9 (ix2 p q) = x9 (ix1 q) := by
  rw [val_main_v74_apply, val_main_v73_apply]; exact congrArg _ (idx1_ext rfl)

/-! ## The normalising factors

The reference's out-degree factors are ones scatter-added from zero at the sources (self loops appended), floored at
one, under the reciprocal square root: the map invSqrtDegree of the sources with loops. Likewise the in-degree factors
from the destinations. Both by unfolding the names. -/

theorem v12_eq (x1 : Ends) : val_main_v12 (F := Ideal) x1 = invSqrtDegree (withLoops x1) := rfl

theorem v15_eq (x2 : Ends) : val_main_v15 (F := Ideal) x2 = invSqrtDegree (withLoops x2) := rfl

/-! ## The stages of the reference, one map at a time -/

/-- Stage 18, the first scaling: the features with every row scaled by the node's out-degree factor. -/
theorem stage18 (x0 : Feat128) (x1 : Ends) :
    val_main_v18 (F := Ideal) x0 x1 = rowScale x0 (column (F := Ideal) (invSqrtDegree (withLoops x1))) := by
  rw [← v12_eq x1]
  exact mulf_eq_rowScale x0 (val_main_v17 (F := Ideal) x1) (val_main_v12 (F := Ideal) x1) (v17_at x1)

/-- Stage 28, the first aggregation: the scaled rows gathered at the sources (negative indices wrapped) and
    scatter-added from zero into the destinations. The same operations on the same arguments, by unfolding the names. -/
theorem stage28 (x0 : Feat128) (x1 x2 : Ends) :
    val_main_v28 (F := Ideal) x0 x1 x2
      = aggregate128 (F := Ideal) (val_main_v18 (F := Ideal) x0 x1) (withLoops x1) (withLoops x2) := rfl

/-- Stage 38: the dense step of the first layer on the aggregated rows scaled by the in-degree factors (stages 31 to
    35), then the scaling by the out-degree factors that opens the second layer. -/
theorem stage38 (x0 : Feat128) (x1 x2 : Ends) (x4 : W128) (x5 : Bias) :
    val_main_v38 (F := Ideal) x0 x1 x2 x4 x5
      = rowScale (dense (val_main_v28 (F := Ideal) x0 x1 x2) (column (F := Ideal) (invSqrtDegree (withLoops x2))) x4
          (biasRow (F := Ideal) x5)) (column (F := Ideal) (invSqrtDegree (withLoops x1))) := by
  rw [← v12_eq x1, ← v15_eq x2]
  refine (mulf_eq_rowScale (val_main_v35 (F := Ideal) x0 x1 x2 x4 x5) (val_main_v37 (F := Ideal) x1)
    (val_main_v12 (F := Ideal) x1) (v37_at x1)).trans ?_
  exact congrArg (fun y => rowScale y (column (F := Ideal) (val_main_v12 (F := Ideal) x1)))
    (addf_dot_eq_dense plain128 (val_main_v28 (F := Ideal) x0 x1 x2) (val_main_v30 (F := Ideal) x2)
      (val_main_v15 (F := Ideal) x2) x4 x5 (val_main_v34 (F := Ideal) x5) (v30_at x2) (v34_at x5))

/-- Stage 48, the second aggregation. -/
theorem stage48 (x0 : Feat128) (x1 x2 : Ends) (x4 : W128) (x5 : Bias) :
    val_main_v48 (F := Ideal) x0 x1 x2 x4 x5
      = aggregate64 (F := Ideal) (val_main_v38 (F := Ideal) x0 x1 x2 x4 x5) (withLoops x1) (withLoops x2) := rfl

/-- Stage 58: the dense step of the second layer (stages 51 to 55), then the scaling that opens the third. -/
theorem stage58 (x0 : Feat128) (x1 x2 : Ends) (x4 : W128) (x5 : Bias) (x6 : W64) (x7 : Bias) :
    val_main_v58 (F := Ideal) x0 x1 x2 x4 x5 x6 x7
      = rowScale (dense (val_main_v48 (F := Ideal) x0 x1 x2 x4 x5) (column (F := Ideal) (invSqrtDegree (withLoops x2))) x6
          (biasRow (F := Ideal) x7)) (column (F := Ideal) (invSqrtDegree (withLoops x1))) := by
  rw [← v12_eq x1, ← v15_eq x2]
  refine (mulf_eq_rowScale (val_main_v55 (F := Ideal) x0 x1 x2 x4 x5 x6 x7) (val_main_v57 (F := Ideal) x1)
    (val_main_v12 (F := Ideal) x1) (v57_at x1)).trans ?_
  exact congrArg (fun y => rowScale y (column (F := Ideal) (val_main_v12 (F := Ideal) x1)))
    (addf_dot_eq_dense plain64 (val_main_v48 (F := Ideal) x0 x1 x2 x4 x5) (val_main_v50 (F := Ideal) x2)
      (val_main_v15 (F := Ideal) x2) x6 x7 (val_main_v54 (F := Ideal) x7) (v50_at x2) (v54_at x7))

/-- Stage 68, the third aggregation. -/
theorem stage68 (x0 : Feat128) (x1 x2 : Ends) (x4 : W128) (x5 : Bias) (x6 : W64) (x7 : Bias) :
    val_main_v68 (F := Ideal) x0 x1 x2 x4 x5 x6 x7
      = aggregate64 (F := Ideal) (val_main_v58 (F := Ideal) x0 x1 x2 x4 x5 x6 x7) (withLoops x1) (withLoops x2) := rfl

/-- Stage 75, the result: the dense step of the third layer (stages 71 to 75). -/
theorem stage75 (x0 : Feat128) (x1 x2 : Ends) (x4 : W128) (x5 : Bias) (x6 : W64) (x7 : Bias) (x8 : W64) (x9 : Bias) :
    val_main_v75 (F := Ideal) x0 x1 x2 x4 x5 x6 x7 x8 x9
      = dense (val_main_v68 (F := Ideal) x0 x1 x2 x4 x5 x6 x7) (column (F := Ideal) (invSqrtDegree (withLoops x2))) x8
          (biasRow (F := Ideal) x9) := by
  rw [← v15_eq x2]
  exact addf_dot_eq_dense plain64 (val_main_v68 (F := Ideal) x0 x1 x2 x4 x5 x6 x7) (val_main_v70 (F := Ideal) x2)
    (val_main_v15 (F := Ideal) x2) x8 x9 (val_main_v74 (F := Ideal) x9) (v70_at x2) (v74_at x9)

/-! ## The whole computation -/

/-- Three graph-convolution layers as one function of the features x, the two endpoint lists e1 (sources) and e2
    (destinations), the two columns of normalising factors son (applied before each aggregation) and sinn (applied
    after it), and three weight matrices with their bias rows: scale by son, aggregate, dense step with sinn; three
    times over, the last dense step's result being the answer. -/
def graphConv3 (x : Mat 100000 128) (e1 e2 : LoopEnds) (son sinn : Mat 100000 1)
    (w0 : Mat 128 64) (b0 : Mat 1 64) (w1 : Mat 64 64) (b1 : Mat 1 64) (w2 : Mat 64 64) (b2 : Mat 1 64) : Mat 100000 64 :=
  dense (aggregate64 (F := Ideal) (rowScale (dense (aggregate64 (F := Ideal) (rowScale (dense (aggregate128 (F := Ideal)
    (rowScale x son) e1 e2) sinn w0 b0) son) e1 e2) sinn w1 b1) son) e1 e2) sinn w2 b2

/-- The reference's result is the three layers applied to its arguments: the endpoint lists with self loops appended,
    the normalising columns computed from them, and each bias vector as a row. -/
theorem reference_eq (x0 : Feat128) (x1 x2 : Ends) (x4 : W128) (x5 : Bias) (x6 : W64) (x7 : Bias) (x8 : W64) (x9 : Bias) :
    val_main_v75 (F := Ideal) x0 x1 x2 x4 x5 x6 x7 x8 x9
      = graphConv3 x0 (withLoops x1) (withLoops x2) (column (F := Ideal) (invSqrtDegree (withLoops x1)))
          (column (F := Ideal) (invSqrtDegree (withLoops x2))) x4 (biasRow (F := Ideal) x5) x6 (biasRow (F := Ideal) x7)
          x8 (biasRow (F := Ideal) x9) := by
  rw [stage75, stage68, stage58, stage48, stage38, stage28, stage18]
  rfl

end Cert.ReferenceIdeal.Layers

end
-- ==== Proof.KernelValue.lean ====
/-
  The kernel program's result as one function of its arguments.

  Follow the result array back through the program. The last kernel leaves the dense step of what the last host
  stretch aggregated; that stretch aggregated what the third kernel left, the dense step of the second aggregation
  scaled by the out-degree factors; and so on back to the first kernel, which scaled the rows of the input features.
  Each kernel's output is a row map of the arrays it found (whatever they were), and each host stretch's arrays are
  the named host maps of the launch memory and of the previous kernel's output. Composed, the result is three
  graph-convolution layers of the arguments — the same function the reference computes. No algebra is needed to join
  them: the kernel program only applies each layer's leading row scaling at the end of the previous kernel instead of
  at the start of the next step.
-/
import proofs.«124921_j80470507257933_1_alg».proof.Proof.Gen.KernelIdeal.Frame
import proofs.«124921_j80470507257933_1_alg».proof.Proof.Region0
import proofs.«124921_j80470507257933_1_alg».proof.Proof.Region1
import proofs.«124921_j80470507257933_1_alg».proof.Proof.Region2
import proofs.«124921_j80470507257933_1_alg».proof.Proof.Region3
import proofs.«124921_j80470507257933_1_alg».proof.Proof.Boundaries
import proofs.«124921_j80470507257933_1_alg».proof.Proof.ReferenceLayers

set_option maxRecDepth 16384

noncomputable section

namespace Cert.KernelIdeal.Result

open Cert.KernelIdeal Cert.KernelIdeal.Gen Cert.KernelIdeal.HostMaps Cert.KernelIdeal.Boundaries Cert.RowMaps
open Cert.ReferenceIdeal.Layers (graphConv3)
open Idealize.ShloMosaic Idealize.ShloMosaic.TcCoe Idealize.SL.Sem

variable (m : (ℓ : Loc nD τ sig) → Buf (Elt Ideal) ℓ) (ρ : Dev nD → PrngReg)

/-- The three layers applied to the launch memory's arguments: the endpoint lists with self loops appended, the two
    columns of normalising factors computed from them, and each bias vector as a row. -/
abbrev layers (c : Dev nD) : S100000x64.Idx → EReal :=
  graphConv3 (m ((c : Thread nD τ).loc main_arg0))
    (withLoops (m ((c : Thread nD τ).loc main_arg1))) (withLoops (m ((c : Thread nD τ).loc main_arg2)))
    (column (invSqrtDegree (withLoops (m ((c : Thread nD τ).loc main_arg1)))))
    (column (invSqrtDegree (withLoops (m ((c : Thread nD τ).loc main_arg2)))))
    (m ((c : Thread nD τ).loc main_arg4)) (biasRow (m ((c : Thread nD τ).loc main_arg5)))
    (m ((c : Thread nD τ).loc main_arg6)) (biasRow (m ((c : Thread nD τ).loc main_arg7)))
    (m ((c : Thread nD τ).loc main_arg8)) (biasRow (m ((c : Thread nD τ).loc main_arg9)))

/-- After the first kernel: the input features with every row scaled by the node's out-degree factor. -/
theorem after_scale (c : Dev nD) :
    W2 m ρ c (Proc.devRef .tc main_v18)
      = rowScale (m ((c : Thread nD τ).loc main_arg0) : S100000x128.Idx → EReal)
          (column (invSqrtDegree (withLoops (m ((c : Thread nD τ).loc main_arg1))))) := by
  refine ((W2_arr m ρ c 2).trans (Region0.final (V1 m ρ) c)).trans ?_
  show rowScale (V1 m ρ c main_arg0 : S100000x128.Idx → EReal) (V1 m ρ c main_v13 : S100000x1.Idx → EReal) = _
  rw [V1_main_arg0 m ρ c, V1_main_v13 m ρ c]

/-- After the second kernel: the first layer's dense step on the first aggregation, scaled for the second layer. -/
theorem after_layer1 (c : Dev nD) :
    W4 m ρ c (Proc.devRef .tc main_v30)
      = rowScale (dense
          (aggregate128 (rowScale (m ((c : Thread nD τ).loc main_arg0) : S100000x128.Idx → EReal)
              (column (invSqrtDegree (withLoops (m ((c : Thread nD τ).loc main_arg1))))))
            (withLoops (m ((c : Thread nD τ).loc main_arg1))) (withLoops (m ((c : Thread nD τ).loc main_arg2))))
          (column (invSqrtDegree (withLoops (m ((c : Thread nD τ).loc main_arg2)))))
          (m ((c : Thread nD τ).loc main_arg4)) (biasRow (m ((c : Thread nD τ).loc main_arg5))))
        (column (invSqrtDegree (withLoops (m ((c : Thread nD τ).loc main_arg1))))) := by
  refine ((W4_arr m ρ c 5).trans (Region1.final (V3 m ρ) c)).trans ?_
  show rowScale (dense (V3 m ρ c main_v28 : S100000x128.Idx → EReal) (V3 m ρ c main_v17 : S100000x1.Idx → EReal)
      (V3 m ρ c main_arg4 : S128x64.Idx → EReal) (V3 m ρ c main_v29 : S1x64.Idx → EReal))
    (V3 m ρ c main_v13 : S100000x1.Idx → EReal) = _
  rw [V3_main_v28 m ρ c, V3_main_v17 m ρ c, V3_main_arg4 m ρ c, V3_main_v29 m ρ c, V3_main_v13 m ρ c, after_scale m ρ c]

/-- After the third kernel: the second layer's dense step on the second aggregation, scaled for the third layer. -/
theorem after_layer2 (c : Dev nD) :
    W6 m ρ c (Proc.devRef .tc main_v42)
      = rowScale (dense
          (aggregate64 (W4 m ρ c (Proc.devRef .tc main_v30))
            (withLoops (m ((c : Thread nD τ).loc main_arg1))) (withLoops (m ((c : Thread nD τ).loc main_arg2))))
          (column (invSqrtDegree (withLoops (m ((c : Thread nD τ).loc main_arg2)))))
          (m ((c : Thread nD τ).loc main_arg6)) (biasRow (m ((c : Thread nD τ).loc main_arg7))))
        (column (invSqrtDegree (withLoops (m ((c : Thread nD τ).loc main_arg1))))) := by
  refine ((W6_arr m ρ c 5).trans (Region2.final (V5 m ρ) c)).trans ?_
  show rowScale (dense (V5 m ρ c main_v40 : S100000x64.Idx → EReal) (V5 m ρ c main_v17 : S100000x1.Idx → EReal)
      (V5 m ρ c main_arg6 : S64x64.Idx → EReal) (V5 m ρ c main_v41 : S1x64.Idx → EReal))
    (V5 m ρ c main_v13 : S100000x1.Idx → EReal) = _
  rw [V5_main_v40 m ρ c, V5_main_v17 m ρ c, V5_main_arg6 m ρ c, V5_main_v41 m ρ c, V5_main_v13 m ρ c]

/-- After the last kernel: the third layer's dense step on the third aggregation. -/
theorem after_layer3 (c : Dev nD) :
    W8 m ρ c (Proc.devRef .tc main_v54)
      = dense
          (aggregate64 (W6 m ρ c (Proc.devRef .tc main_v42))
            (withLoops (m ((c : Thread nD τ).loc main_arg1))) (withLoops (m ((c : Thread nD τ).loc main_arg2))))
          (column (invSqrtDegree (withLoops (m ((c : Thread nD τ).loc main_arg2)))))
          (m ((c : Thread nD τ).loc main_arg8)) (biasRow (m ((c : Thread nD τ).loc main_arg9))) := by
  refine ((W8_arr m ρ c 4).trans (Region3.final (V7 m ρ) c)).trans ?_
  show dense (V7 m ρ c main_v52 : S100000x64.Idx → EReal) (V7 m ρ c main_v17 : S100000x1.Idx → EReal)
      (V7 m ρ c main_arg8 : S64x64.Idx → EReal) (V7 m ρ c main_v53 : S1x64.Idx → EReal) = _
  rw [V7_main_v52 m ρ c, V7_main_v17 m ρ c, V7_main_arg8 m ρ c, V7_main_v53 m ρ c]

/-- THE RESULT: the program's result array at the last boundary is the three layers of the launch memory's arguments. -/
theorem result_eq (c : Dev nD) : W8 m ρ c (Proc.devRef .tc main_v54) = layers m c := by
  rw [after_layer3 m ρ c, after_layer2 m ρ c, after_layer1 m ρ c]
  rfl

end Cert.KernelIdeal.Result

end
-- ==== Proof.lean ====
/-
  A three-layer graph convolution on 100000 nodes, computed by a program of four tiled kernels among whole-array host
  steps, against the same computation written as whole-array operations only.

  Both programs add a self loop at every node, count each node's out- and in-degree d and form the normalising factors
  1 / sqrt(max(d, 1)), on and inn. One layer takes a feature matrix h to ((S (h · on)) · inn) W + b: every row of h is
  scaled by the node's entry of on; S sums into each node the rows of the sources of its incoming edges; every row of
  the sum is scaled by the node's entry of inn and multiplied by the weight matrix W; the bias b is added to every row.
  The reference applies this three times. The kernel program computes h · on in a first kernel, and then each layer's
  dense step ((· inn) W + b) in a kernel of its own that also applies the NEXT layer's scaling by on before writing
  back, the gather and scatter-add of S staying on the host between kernels. So the two programs apply the same
  operations to the same values in the same order, and their results are equal as extended reals with no algebra
  between them and no use of the inputs' finiteness. What has to be shown is only that each kernel, which works on 5000
  rows at a time with the weights narrowed to a shorter float format (the identity on extended reals) and its matrix
  product accumulated from zero, writes the same array as the one whole-array operation: a row of a scaled matrix, and
  a row of a matrix product, depend only on the same row of the left operand.

  The three frame claims are the generated ones (the reference's is its generated run with the result dropped); the
  idealization rewrote no operation, so there is nothing to preserve; the last claim joins the kernel program's run,
  whose result array is followed back through its four kernels (Result.result_eq), with the reference's run, whose
  last stage is the same three layers (Layers.reference_eq).
-/
import proofs.«124921_j80470507257933_1_alg».proof.Defs
import proofs.«124921_j80470507257933_1_alg».proof.Proof.Gen.Kernel
import proofs.«124921_j80470507257933_1_alg».proof.Proof.Gen.Kernel.Skeleton
import proofs.«124921_j80470507257933_1_alg».proof.Proof.Gen.Kernel.Launch
import proofs.«124921_j80470507257933_1_alg».proof.Proof.Gen.Kernel.Points
import proofs.«124921_j80470507257933_1_alg».proof.Proof.Gen.Kernel.Frame
import proofs.«124921_j80470507257933_1_alg».proof.Proof.Gen.KernelIdeal
import proofs.«124921_j80470507257933_1_alg».proof.Proof.Gen.KernelIdeal.Skeleton
import proofs.«124921_j80470507257933_1_alg».proof.Proof.Gen.KernelIdeal.Launch
import proofs.«124921_j80470507257933_1_alg».proof.Proof.Gen.KernelIdeal.Points
import proofs.«124921_j80470507257933_1_alg».proof.Proof.Gen.KernelIdeal.Frame
import proofs.«124921_j80470507257933_1_alg».proof.Proof.Gen.ReferenceIdeal
import proofs.«124921_j80470507257933_1_alg».proof.Proof.Gen.ReferenceIdeal.Run
import proofs.«124921_j80470507257933_1_alg».proof.Proof.Gen.ReferenceIdeal.Read
import proofs.«124921_j80470507257933_1_alg».proof.Proof.Gen.Pre_finite_inputs
import proofs.«124921_j80470507257933_1_alg».proof.Proof.KernelRun
import proofs.«124921_j80470507257933_1_alg».proof.Proof.KernelValue
import proofs.«124921_j80470507257933_1_alg».proof.Proof.ReferenceLayers
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both idealized programs run; each ends with its first result at three
    graph-convolution layers of the arguments and its second result at the node list it was given. -/
theorem algebraic : Cert.algebraic_KernelIdeal_ReferenceIdeal := by
  intro m ρ m' ρ' _ hagree
  refine ⟨fun c => Cert.KernelIdeal.Gen.W8 m ρ c (Proc.devRef .tc Cert.KernelIdeal.main_v54),
    fun c => m ((c.tc : Thread Cert.KernelIdeal.nD Cert.KernelIdeal.τ).loc Cert.KernelIdeal.main_arg3),
    Cert.KernelIdeal.ValueRun.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, -, a4, a5, a6, a7, a8, a9⟩ := hagree c
    rw [Cert.ReferenceIdeal.Read.val_main_v75_eq, Cert.ReferenceIdeal.Layers.reference_eq, a0, a1, a2, a4, a5, a6, a7, a8, a9]
    exact (Cert.KernelIdeal.Result.result_eq m ρ c).symm
  · exact (hagree c).2.2.2.1

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
